-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x64 : Shape := ⟨2, ![256, 64]⟩
abbrev S64 : Shape := ⟨1, ![64]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S256x64 .f32) (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x256 .f32) (main_arg1 : FVec F S256x64 .f32) (main_arg2 : FVec F S64 .f32) (main_arg3 : FVec F S256x64 .f32) (main_arg4 : FVec F S64 .f32) (main_arg5 : FVec F S256x64 .f32) (main_arg6 : FVec F S64 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S4x4096x256 : Shape := ⟨3, ![4, 4096, 256]⟩
abbrev S256x64 : Shape := ⟨2, ![256, 64]⟩
abbrev S64 : Shape := ⟨1, ![64]⟩
abbrev S256x192 : Shape := ⟨2, ![256, 192]⟩
abbrev S192 : Shape := ⟨1, ![192]⟩
abbrev S4x4096x64 : Shape := ⟨3, ![4, 4096, 64]⟩
abbrev S4x512x256 : Shape := ⟨3, ![4, 512, 256]⟩
abbrev S4x512x64 : Shape := ⟨3, ![4, 512, 64]⟩
abbrev S2048x256 : Shape := ⟨2, ![2048, 256]⟩
abbrev S2048x192 : Shape := ⟨2, ![2048, 192]⟩
abbrev S1x192 : Shape := ⟨2, ![1, 192]⟩
abbrev S2048x64 : Shape := ⟨2, ![2048, 64]⟩
abbrev S1x256x64 : Shape := ⟨3, ![1, 256, 64]⟩
abbrev S1x4096x64 : Shape := ⟨3, ![1, 4096, 64]⟩
abbrev S4096x64 : Shape := ⟨2, ![4096, 64]⟩
abbrev S64x4096 : Shape := ⟨2, ![64, 4096]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x4096x256, .f32⟩
  | .hbm, ⟨1, _⟩ => ⟨S256x64, .f32⟩
  | .hbm, ⟨2, _⟩ => ⟨S64, .f32⟩
  | .hbm, ⟨3, _⟩ => ⟨S256x64, .f32⟩
  | .hbm, ⟨4, _⟩ => ⟨S64, .f32⟩
  | .hbm, ⟨5, _⟩ => ⟨S256x64, .f32⟩
  | .hbm, ⟨6, _⟩ => ⟨S64, .f32⟩
  | .hbm, ⟨7, _⟩ => ⟨S256x192, .f32⟩
  | .hbm, ⟨8, _⟩ => ⟨S192, .f32⟩
  | .hbm, ⟨9, _⟩ => ⟨S4x4096x64, .bf16⟩
  | .hbm, ⟨10, _⟩ => ⟨S4x4096x64, .bf16⟩
  | .hbm, ⟨11, _⟩ => ⟨S4x4096x64, .bf16⟩
  | .hbm, ⟨12, _⟩ => ⟨S4x4096x64, .f32⟩
  | .local _ .vmem, ⟨0, _⟩ => ⟨S4x512x256, .f32⟩
  | .local _ .vmem, ⟨1, _⟩ => ⟨S4x512x256, .f32⟩
  | .local _ .vmem, ⟨2, _⟩ => ⟨S256x192, .f32⟩
  | .local _ .vmem, ⟨3, _⟩ => ⟨S192, .f32⟩
  | .local _ .vmem, ⟨4, _⟩ => ⟨S4x512x64, .bf16⟩
  | .local _ .vmem, ⟨5, _⟩ => ⟨S4x512x64, .bf16⟩
  | .local _ .vmem, ⟨6, _⟩ => ⟨S4x512x64, .bf16⟩
  | .local _ .vmem, ⟨7, _⟩ => ⟨S4x512x64, .bf16⟩
  | .local _ .vmem, ⟨8, _⟩ => ⟨S4x512x64, .bf16⟩
  | .local _ .vmem, ⟨9, _⟩ => ⟨S4x512x64, .bf16⟩
  | .local _ .vmem, ⟨10, _⟩ => ⟨S1x256x64, .bf16⟩
  | .local _ .vmem, ⟨11, _⟩ => ⟨S1x256x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x4096x64, .bf16⟩
  | .local _ .vmem, ⟨16, _⟩ => ⟨S1x256x64, .f32⟩
  | .local _ .vmem, ⟨17, _⟩ => ⟨S1x256x64, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S256x64_S256x64_S256x64_S256x192_d1 : Shape.Concatenates [S256x64, S256x64, S256x64] S256x192 1
  concatenates_S64_S64_S64_S192_d0 : Shape.Concatenates [S64, S64, S64] S192 0
  inb_S4x512x256_S4x512x256_0_0_0 : ∀ a, (![0, 0, 0] : Fin 3 → Nat) a + S4x512x256.size a ≤ S4x512x256.size a
  h_S4x512x256 : 0 < S4x512x256.numel
  shapeCasts_S4x512x256_S2048x256 : S4x512x256.ShapeCasts S2048x256
  bitsLt_bf16_f32 : FTy.bits .bf16 < FTy.bits .f32
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S2048x192 : S1x192.Broadcasts S2048x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  shapeCasts_S2048x64_S4x512x64 : S2048x64.ShapeCasts S4x512x64
  inb_S4x512x64_S4x512x64_0_0_0 : ∀ a, (![0, 0, 0] : Fin 3 → Nat) a + S4x512x64.size a ≤ S4x512x64.size a
  h_S4x512x64 : 0 < S4x512x64.numel
  packedbf16_S4x512x64_S4x512x64_0_0_0 : (Rect.unit (s := S4x512x64) ![0, 0, 0] S4x512x64.size inb_S4x512x64_S4x512x64_0_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  shapeCasts_S256x64_S1x256x64 : S256x64.ShapeCasts S1x256x64
  dot_S2048x256_S256x192_S2048x192_1_0_0_1_n_n_wf : DotDims.WF S2048x256 S256x192 S2048x192 [1] [0] [0] [1] [] []
  dot_S256x64_S64x4096_S256x4096_1_0_0_1_n_n_wf : DotDims.WF S256x64 S64x4096 S256x4096 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S4x4096x256.size a
  hwx0_0 : ∀ i : grid0.Coords, EltTy.bits .f32 = 32 ∨ (Rect.block (s := S4x4096x256) S4x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S256x192.size a
  hwx0_1 : ∀ i : grid0.Coords, EltTy.bits .f32 = 32 ∨ (Rect.block (s := S256x192) S256x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x64.size a ≤ S4x4096x64.size a
  hwx0_3 : ∀ i : grid0.Coords, EltTy.bits .bf16 = 32 ∨ (Rect.block (s := S4x4096x64) S4x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x64.size a ≤ S4x4096x64.size a
  hwx0_4 : ∀ i : grid0.Coords, EltTy.bits .bf16 = 32 ∨ (Rect.block (s := S4x4096x64) S4x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x64.size a ≤ S4x4096x64.size a
  hwx0_5 : ∀ i : grid0.Coords, EltTy.bits .bf16 = 32 ∨ (Rect.block (s := S4x4096x64) S4x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S4x4096x64.size a
  hwx1_0 : ∀ i : grid1.Coords, EltTy.bits .bf16 = 32 ∨ (Rect.block (s := S4x4096x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .bf16 = 32 ∨ (Rect.block (s := S4x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S4x4096x64.size a
  hwx1_3 : ∀ i : grid1.Coords, EltTy.bits .f32 = 32 ∨ (Rect.block (s := S4x4096x64) S1x256x64.size (cc1_transform_3 i) (hinb1_3 i)).WholeWords (EltTy.packing .f32)

variable [Facts₀]

def dot_S2048x256_S256x192_S2048x192_1_0_0_1_n_n : DotDims S2048x256 S256x192 S2048x192 where
  lhsContracting := [1]
  rhsContracting := [0]
  lhsNonContracting := [0]
  rhsNonContracting := [1]
  lhsBatch := []
  rhsBatch := []
  wf := dot_S2048x256_S256x192_S2048x192_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S4x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S4x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S4x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x256 : Shape := ⟨3, ![4, 4096, 256]⟩
abbrev S256x64 : Shape := ⟨2, ![256, 64]⟩
abbrev S64 : Shape := ⟨1, ![64]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x64, .f32⟩
  | .hbm, ⟨2, _⟩ => ⟨S64, .f32⟩
  | .hbm, ⟨3, _⟩ => ⟨S256x64, .f32⟩
  | .hbm, ⟨4, _⟩ => ⟨S64, .f32⟩
  | .hbm, ⟨5, _⟩ => ⟨S256x64, .f32⟩
  | .hbm, ⟨6, _⟩ => ⟨S64, .f32⟩
  | .hbm, ⟨7, _⟩ => ⟨S4x4096x64, .f32⟩
  | .hbm, ⟨8, _⟩ => ⟨S1x1x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S1x1x64, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x64, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x64_S4x4096x64_2_0_01_1_n_n_wf : DotDims.WF S4x4096x256 S256x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x256_S256x64_S4x4096x64_2_0_01_1_n_n : DotDims S4x4096x256 S256x64 S4x4096x64 where
  lhsContracting := [2]
  rhsContracting := [0]
  lhsNonContracting := [0, 1]
  rhsNonContracting := [1]
  lhsBatch := []
  rhsBatch := []
  wf := dot_S4x4096x256_S256x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KProjRegion.lean ====
import proofs.«138785_j2147483648333_2_alg».proof.Proof.Gen.Kernel.Launch
import proofs.«138785_j2147483648333_2_alg».proof.Proof.Gen.Kernel.Skeleton
import proofs.«138785_j2147483648333_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region

The first launch tiles the rows of the input eight ways.  At each grid point the body reads a block of
input rows, the fused weight matrix and the fused bias, and stores three projected blocks.  This module
states what each of the three output staging buffers holds after the body as a function of the three
input blocks, proves the body's triple, and packages the per-point data the launch theorem takes; all
at an arbitrary valuation `V` of the buffers at the region's entry. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not
    (when it is not fetched the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S4x512x256 := Rect.unit (s := S4x512x256) ![0, 0, 0] S4x512x256.size inb_S4x512x256_S4x512x256_0_0_0
abbrev r0_1 : Rect S256x192 := Rect.unit (s := S256x192) ![0, 0] S256x192.size inb_S256x192_S256x192_0_0
abbrev r0_2 : Rect S192 := Rect.unit (s := S192) ![0] S192.size inb_S192_S192_0
abbrev r0_3 : Rect S4x512x64 := Rect.unit (s := S4x512x64) ![0, 0, 0] S4x512x64.size inb_S4x512x64_S4x512x64_0_0_0

/-- What the body leaves in the three output buffers: one whole-buffer store each, of the three column
    slices of the fused product. -/
def out0_3 (x0 : Vec F S4x512x256 .f32) (x1 : Vec F S256x192 .f32) (x2 : Vec F S192 .f32) : Vec F S4x512x64 .bf16 :=
  View.canon [⟨r0_3, k0_pay2 (View.ld x0 r0_0) (View.ld x1 r0_1) (View.ld x2 r0_2)⟩]
def out0_4 (x0 : Vec F S4x512x256 .f32) (x1 : Vec F S256x192 .f32) (x2 : Vec F S192 .f32) : Vec F S4x512x64 .bf16 :=
  View.canon [⟨r0_3, k0_pay3 (View.ld x0 r0_0) (View.ld x1 r0_1) (View.ld x2 r0_2)⟩]
def out0_5 (x0 : Vec F S4x512x256 .f32) (x1 : Vec F S256x192 .f32) (x2 : Vec F S192 .f32) : Vec F S4x512x64 .bf16 :=
  View.canon [⟨r0_3, k0_pay4 (View.ld x0 r0_0) (View.ld x1 r0_1) (View.ld x2 r0_2)⟩]

/-- A single whole-buffer store covers the buffer. -/
theorem cover0_out (p0 : Vec F S4x512x64 .bf16) (y : S4x512x64.Idx) :
    ∃ pc ∈ ([⟨r0_3, p0⟩] : List (View.Piece (Elt F) S4x512x64 .bf16)), y ∈ pc.1.set :=
  View.cover_of_tiled [⟨r0_3, p0⟩] S4x512x64.size (by rfl) y

set_option maxHeartbeats 4000000 in
/-- The body on whole staging buffers: the inputs at their contents, the outputs at anything, runs to the
    continuation with the inputs unchanged and each output at its function of the inputs. -/
theorem sound_kernel0 (c : Dev nD) (E : Set ℕ) (i : grid0.Coords) (arg1 : Memref sig .tc .vmem S4x512x256 .f32) (harg1 : arg1.IsWhole) (arg2 : Memref sig .tc .vmem S256x192 .f32) (harg2 : arg2.IsWhole) (arg3 : Memref sig .tc .vmem S192 .f32) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .bf16) (harg6 : arg6.IsWhole)
    (x0 : Vec F S4x512x256 .f32) (x1 : Vec F S256x192 .f32) (x2 : Vec F S192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The per-point data of the launch -/

/-- The arrays as the region finds them; after the body at point `t` each input's buffer at its block and
    each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KAttnRegion.lean ====
import proofs.«138785_j2147483648333_2_alg».proof.Proof.Gen.Kernel.Launch
import proofs.«138785_j2147483648333_2_alg».proof.Proof.Gen.Kernel.Skeleton
import proofs.«138785_j2147483648333_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region

The second launch runs over (batch, query tile).  At each grid point the body reads one tile of query
rows and the whole key and value arrays of the batch, and stores one tile of output rows.  This module
states what the output staging buffer holds after the body as a function of the three input blocks,
proves the body's triple, and packages the per-point data the launch theorem takes; all at an arbitrary
valuation `V` of the buffers at the region's entry. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not
    (when it is not fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1x256x64 := Rect.unit (s := S1x256x64) ![0, 0, 0] S1x256x64.size inb_S1x256x64_S1x256x64_0_0_0
abbrev r1_1 : Rect S1x4096x64 := Rect.unit (s := S1x4096x64) ![0, 0, 0] S1x4096x64.size inb_S1x4096x64_S1x4096x64_0_0_0

/-- What the body leaves in the output buffer: one whole-buffer store of the normalised weighted sum. -/
def out1_3 (x0 : Vec F S1x256x64 .bf16) (x1 : Vec F S1x4096x64 .bf16) (x2 : Vec F S1x4096x64 .bf16) : Vec F S1x256x64 .f32 :=
  View.canon [⟨r1_0, k1_pay1 (View.ld x0 r1_0) (View.ld x1 r1_1) (View.ld x2 r1_1)⟩]

/-- A single whole-buffer store covers the buffer. -/
theorem cover1_out (p0 : Vec F S1x256x64 .f32) (y : S1x256x64.Idx) :
    ∃ pc ∈ ([⟨r1_0, p0⟩] : List (View.Piece (Elt F) S1x256x64 .f32)), y ∈ pc.1.set :=
  View.cover_of_tiled [⟨r1_0, p0⟩] S1x256x64.size (by rfl) y

set_option maxHeartbeats 4000000 in
/-- The body on whole staging buffers: the inputs at their contents, the output at anything, runs to the
    continuation with the inputs unchanged and the output at its function of the inputs. -/
theorem sound_kernel1 (c : Dev nD) (E : Set ℕ) (i : grid1.Coords) (arg2 : Memref sig .tc .vmem S1x256x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x256x64 .f32) (harg5 : arg5.IsWhole)
    (x0 : Vec F S1x256x64 .bf16) (x1 : Vec F S1x4096x64 .bf16) (x2 : Vec F S1x4096x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_out _)

/-! ## The per-point data of the launch -/

/-- The arrays as the region finds them; after the body at point `t` each input's buffer at its block and
    the output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRun.lean ====
import proofs.«138785_j2147483648333_2_alg».proof.Proof.Gen.Kernel.Launch
import proofs.«138785_j2147483648333_2_alg».proof.Proof.Gen.Kernel.Skeleton
import proofs.«138785_j2147483648333_2_alg».proof.Proof.Gen.Kernel.Points
import proofs.«138785_j2147483648333_2_alg».proof.Proof.KProjRegion
import proofs.«138785_j2147483648333_2_alg».proof.Proof.KAttnRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The program is a stretch of two host operations (the three weight matrices joined along their columns,
the three biases joined end to end), the projection launch and the attention launch.  The buffers'
contents at each boundary are a fold from the launch memory: the host stretch's results, then each
launch's arrays at what its write-backs leave.  Every weakly fair execution terminates; at the end the
result array holds what the attention launch's write-backs leave over the grid, and every argument array
holds its launch contents (no host operation and no launch writes one). -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two host operations (the projection launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection launch's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention launch's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the
    core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting; the result array ends at what the attention
    launch's write-backs leave and every argument array as launched. -/
theorem run_main : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-- The frame claim at any instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Frame

end
-- ==== Proof.KIProjRegion.lean ====
import proofs.«138785_j2147483648333_2_alg».proof.Proof.Gen.KernelIdeal.Launch
import proofs.«138785_j2147483648333_2_alg».proof.Proof.Gen.KernelIdeal.Skeleton
import proofs.«138785_j2147483648333_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region

The first launch tiles the rows of the input eight ways.  At each grid point the body reads a block of
input rows, the fused weight matrix and the fused bias, and stores three projected blocks.  This module
states what each of the three output staging buffers holds after the body as a function of the three
input blocks, proves the body's triple, and packages the per-point data the launch theorem takes; all
at an arbitrary valuation `V` of the buffers at the region's entry. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not
    (when it is not fetched the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S4x512x256 := Rect.unit (s := S4x512x256) ![0, 0, 0] S4x512x256.size inb_S4x512x256_S4x512x256_0_0_0
abbrev r0_1 : Rect S256x192 := Rect.unit (s := S256x192) ![0, 0] S256x192.size inb_S256x192_S256x192_0_0
abbrev r0_2 : Rect S192 := Rect.unit (s := S192) ![0] S192.size inb_S192_S192_0
abbrev r0_3 : Rect S4x512x64 := Rect.unit (s := S4x512x64) ![0, 0, 0] S4x512x64.size inb_S4x512x64_S4x512x64_0_0_0

/-- What the body leaves in the three output buffers: one whole-buffer store each, of the three column
    slices of the fused product. -/
def out0_3 (x0 : Vec F S4x512x256 .f32) (x1 : Vec F S256x192 .f32) (x2 : Vec F S192 .f32) : Vec F S4x512x64 .bf16 :=
  View.canon [⟨r0_3, k0_pay2 (View.ld x0 r0_0) (View.ld x1 r0_1) (View.ld x2 r0_2)⟩]
def out0_4 (x0 : Vec F S4x512x256 .f32) (x1 : Vec F S256x192 .f32) (x2 : Vec F S192 .f32) : Vec F S4x512x64 .bf16 :=
  View.canon [⟨r0_3, k0_pay3 (View.ld x0 r0_0) (View.ld x1 r0_1) (View.ld x2 r0_2)⟩]
def out0_5 (x0 : Vec F S4x512x256 .f32) (x1 : Vec F S256x192 .f32) (x2 : Vec F S192 .f32) : Vec F S4x512x64 .bf16 :=
  View.canon [⟨r0_3, k0_pay4 (View.ld x0 r0_0) (View.ld x1 r0_1) (View.ld x2 r0_2)⟩]

/-- A single whole-buffer store covers the buffer. -/
theorem cover0_out (p0 : Vec F S4x512x64 .bf16) (y : S4x512x64.Idx) :
    ∃ pc ∈ ([⟨r0_3, p0⟩] : List (View.Piece (Elt F) S4x512x64 .bf16)), y ∈ pc.1.set :=
  View.cover_of_tiled [⟨r0_3, p0⟩] S4x512x64.size (by rfl) y

set_option maxHeartbeats 4000000 in
/-- The body on whole staging buffers: the inputs at their contents, the outputs at anything, runs to the
    continuation with the inputs unchanged and each output at its function of the inputs. -/
theorem sound_kernel0 (c : Dev nD) (E : Set ℕ) (i : grid0.Coords) (arg1 : Memref sig .tc .vmem S4x512x256 .f32) (harg1 : arg1.IsWhole) (arg2 : Memref sig .tc .vmem S256x192 .f32) (harg2 : arg2.IsWhole) (arg3 : Memref sig .tc .vmem S192 .f32) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .bf16) (harg6 : arg6.IsWhole)
    (x0 : Vec F S4x512x256 .f32) (x1 : Vec F S256x192 .f32) (x2 : Vec F S192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The per-point data of the launch -/

/-- The arrays as the region finds them; after the body at point `t` each input's buffer at its block and
    each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIAttnRegion.lean ====
import proofs.«138785_j2147483648333_2_alg».proof.Proof.Gen.KernelIdeal.Launch
import proofs.«138785_j2147483648333_2_alg».proof.Proof.Gen.KernelIdeal.Skeleton
import proofs.«138785_j2147483648333_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region

The second launch runs over (batch, query tile).  At each grid point the body reads one tile of query
rows and the whole key and value arrays of the batch, and stores one tile of output rows.  This module
states what the output staging buffer holds after the body as a function of the three input blocks,
proves the body's triple, and packages the per-point data the launch theorem takes; all at an arbitrary
valuation `V` of the buffers at the region's entry. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not
    (when it is not fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1x256x64 := Rect.unit (s := S1x256x64) ![0, 0, 0] S1x256x64.size inb_S1x256x64_S1x256x64_0_0_0
abbrev r1_1 : Rect S1x4096x64 := Rect.unit (s := S1x4096x64) ![0, 0, 0] S1x4096x64.size inb_S1x4096x64_S1x4096x64_0_0_0

/-- What the body leaves in the output buffer: one whole-buffer store of the normalised weighted sum. -/
def out1_3 (x0 : Vec F S1x256x64 .bf16) (x1 : Vec F S1x4096x64 .bf16) (x2 : Vec F S1x4096x64 .bf16) : Vec F S1x256x64 .f32 :=
  View.canon [⟨r1_0, k1_pay1 (View.ld x0 r1_0) (View.ld x1 r1_1) (View.ld x2 r1_1)⟩]

/-- A single whole-buffer store covers the buffer. -/
theorem cover1_out (p0 : Vec F S1x256x64 .f32) (y : S1x256x64.Idx) :
    ∃ pc ∈ ([⟨r1_0, p0⟩] : List (View.Piece (Elt F) S1x256x64 .f32)), y ∈ pc.1.set :=
  View.cover_of_tiled [⟨r1_0, p0⟩] S1x256x64.size (by rfl) y

set_option maxHeartbeats 4000000 in
/-- The body on whole staging buffers: the inputs at their contents, the output at anything, runs to the
    continuation with the inputs unchanged and the output at its function of the inputs. -/
theorem sound_kernel1 (c : Dev nD) (E : Set ℕ) (i : grid1.Coords) (arg2 : Memref sig .tc .vmem S1x256x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x256x64 .f32) (harg5 : arg5.IsWhole)
    (x0 : Vec F S1x256x64 .bf16) (x1 : Vec F S1x4096x64 .bf16) (x2 : Vec F S1x4096x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_out _)

/-! ## The per-point data of the launch -/

/-- The arrays as the region finds them; after the body at point `t` each input's buffer at its block and
    the output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KIRun.lean ====
import proofs.«138785_j2147483648333_2_alg».proof.Proof.Gen.KernelIdeal.Launch
import proofs.«138785_j2147483648333_2_alg».proof.Proof.Gen.KernelIdeal.Skeleton
import proofs.«138785_j2147483648333_2_alg».proof.Proof.Gen.KernelIdeal.Points
import proofs.«138785_j2147483648333_2_alg».proof.Proof.KIProjRegion
import proofs.«138785_j2147483648333_2_alg».proof.Proof.KIAttnRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The program is a stretch of two host operations (the three weight matrices joined along their columns,
the three biases joined end to end), the projection launch and the attention launch.  The buffers'
contents at each boundary are a fold from the launch memory: the host stretch's results, then each
launch's arrays at what its write-backs leave.  Every weakly fair execution terminates; at the end the
result array holds what the attention launch's write-backs leave over the grid, and every argument array
holds its launch contents (no host operation and no launch writes one). -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two host operations (the projection launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection launch's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention launch's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nary_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the
    core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting; the result array ends at what the attention
    launch's write-backs leave and every argument array as launched. -/
theorem run_main : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-- The frame claim at any instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Frame

end
-- ==== Proof.Spec.lean ====
import Idealize.ShloMosaic.PureOps.Ideal
import Idealize.ShloMosaic.Lib.ValueIdx

/-!
  Scaled dot-product attention over the extended reals, entry by entry.

  Three projections q, k, v of the rows of x (a matrix product plus a bias), the scores
  q·kᵀ scaled by 1/8, a softmax over each score row, and the softmax-weighted sum of the rows
  of v.  Two arrangements of the last step are stated: the quotient of the weighted sum by
  the row's total (`attnK`), and the sum weighted by the quotients (`attnR`).  On real
  scores and values the two agree, because the total is a positive real and division by it
  distributes over the finite sum.
-/

noncomputable section

open scoped BigOperators

namespace Cert.Attention

open Idealize.ShloMosaic Idealize.ShloMosaic.ValueIdx

/-- The three literal constants: minus infinity (the start of a running maximum), one
    eighth (the factor one side scales the scores by) and eight (the divisor the other side uses). -/
abbrev negInf : EReal := Ideal.ofBits .f32 0xFF800000#32
abbrev eighth : EReal := Ideal.ofBits .f32 0x3E000000#32
abbrev eight : EReal := Ideal.ofBits .f32 0x41000000#32

/-- One projection at batch `bb`, row `s`, unit `u`: the row of `x` times the column of `W`, plus the bias. -/
def proj (x : (⟨3, ![4, 4096, 256]⟩ : Shape).Idx → EReal) (W : (⟨2, ![256, 64]⟩ : Shape).Idx → EReal)
    (b : (⟨1, ![64]⟩ : Shape).Idx → EReal) (bb : Fin 4) (s : Fin 4096) (u : Fin 64) : EReal :=
  (∑ d : Fin 256, x (ix3 bb s d) * W (ix2 d u)) + b (ix1 u)

/-- The unscaled score of query row `s` against key row `t` in batch `bb`. -/
def dotqk (q k : Fin 4 → Fin 4096 → Fin 64 → EReal) (bb : Fin 4) (s t : Fin 4096) : EReal :=
  ∑ u : Fin 64, q bb s u * k bb t u

/-- The maximum of a score row, folded from minus infinity. -/
def rowMax (sc : Fin 4096 → EReal) : EReal := (Finset.univ : Finset (Fin 4096)).fold max negInf sc

/-- The shifted exponential of one score. -/
def rowExp (sc : Fin 4096 → EReal) (t : Fin 4096) : EReal := Ideal.exp (sc t - rowMax sc)

/-- The row's total. -/
def rowTotal (sc : Fin 4096 → EReal) : EReal := ∑ t : Fin 4096, rowExp sc t

/-- Weighted sum first, then one division by the total. -/
def attnK (sc : Fin 4096 → EReal) (vcol : Fin 4096 → EReal) : EReal :=
  Ideal.div (∑ t : Fin 4096, rowExp sc t * vcol t) (rowTotal sc)

/-- Each weight divided by the total first, then the weighted sum. -/
def attnR (sc : Fin 4096 → EReal) (vcol : Fin 4096 → EReal) : EReal :=
  ∑ t : Fin 4096, Ideal.div (rowExp sc t) (rowTotal sc) * vcol t

/-- The result with the scores scaled by the factor one eighth and one final division. -/
def outK (q k v : Fin 4 → Fin 4096 → Fin 64 → EReal) (bb : Fin 4) (s : Fin 4096) (u : Fin 64) : EReal :=
  attnK (fun t => dotqk q k bb s t * eighth) (fun t => v bb t u)

/-- The result with the scores divided by eight and the weights normalised before the sum. -/
def outR (q k v : Fin 4 → Fin 4096 → Fin 64 → EReal) (bb : Fin 4) (s : Fin 4096) (u : Fin 64) : EReal :=
  attnR (fun t => Ideal.div (dotqk q k bb s t) eight) (fun t => v bb t u)

end Cert.Attention

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.Payload0.lean ====
/-
  The projection kernel's three stored values read at one entry.

  The body flattens its [4, 512, 256] block of x to 2048 rows (row b·512 + r), multiplies by the fused [256, 192]
  weight matrix into a zero accumulator, adds the bias row, cuts the columns 0..63, 64..127 and 128..191 and folds the
  2048 rows back to [4, 512, 64]. At the exact (extended real) reading of floats the roundings are the identity, so
  each stored entry (b, r, u) is the sum over d of x[b, r, d] · W[d, o + u], plus bias[o + u], for o = 0, 64, 128.
-/
import proofs.«138785_j2147483648333_2_alg».proof.Proof.Gen.KernelIdeal.Skeleton
import proofs.«138785_j2147483648333_2_alg».proof.Proof.Spec
import proofs.«138785_j2147483648333_2_alg».proof.Proof.LibPlainContract
import proofs.«138785_j2147483648333_2_alg».proof.Proof.LibLayout3
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Cert.Attention Idealize.ShloMosaic Idealize.ShloMosaic.ValueIdx

variable [Cert.KernelIdeal.Facts]

/-- The fused product plus bias at row `row = b·512 + r` and column `c` of the [2048, 192] intermediate. -/
theorem fused_apply (v0 : Vec Ideal S4x512x256 .f32) (v3 : Vec Ideal S256x192 .f32) (v7 : Vec Ideal S192 .f32)
    (b : Fin 4) (r : Fin 512) (row : Fin 2048) (hrow : row.val = b.val * 512 + r.val) (c : Fin 192) :
    k0_pay1 (F := Ideal) v0 v3 v7 (ix2 row c)
      = (∑ d : Fin 256, v0 (ix3 b r d) * v3 (ix2 d c)) + v7 (ix1 c) := by
  unfold k0_pay1
  refine congrArg₂ (· + ·) ?_ ?_
  · refine (Cert.LibPlainContract.matmul_plain_apply 2048 256 192 none _ _ row c).trans ?_
    refine Finset.sum_congr rfl fun d _ => ?_
    exact congrArg₂ (· * ·)
      (Cert.LibLayout3.shapeCast_abc_mc_apply v0 shapeCasts_S4x512x256_S2048x256 b r d row hrow)
      (congrFun (shapeCast_self v3 shapeCasts_S256x192_S256x192) (ix2 d c))
  · refine (broadcastTo_1b_ab_apply _ broadcasts_S1x192_S2048x192 row c).trans ?_
    refine (shapeCast_a_1a_apply _ shapeCasts_S192_S1x192 (0 : Fin 1) c).trans ?_
    exact congrFun (shapeCast_self v7 shapeCasts_S192_S192) (ix1 c)

/-- A [2048, 192] matrix cut along its columns from `o` and folded to [4, 512, 64], read at (b, r, u): the matrix at
    row b·512 + r and column `c = o + u`. -/
theorem cut_fold_apply (X : FVec Ideal S2048x192 .f32) (o : Nat) (h : S2048x192.Slices ![0, o] S2048x64)
    (b : Fin 4) (r : Fin 512) (u : Fin 64) (row : Fin 2048) (hrow : row.val = b.val * 512 + r.val)
    (c : Fin 192) (hc : c.val = o + u.val) :
    shapeCast S4x512x64 (extractStridedSlice S2048x64 ![0, o] X h) shapeCasts_S2048x64_S4x512x64 (ix3 b r u)
      = X (ix2 row c) :=
  (Cert.LibLayout3.shapeCast_mc_abc_apply _ shapeCasts_S2048x64_S4x512x64 b r u row hrow).trans
    (slice2_axis1_apply o X h row u c hc)

/-- The first stored value (the queries) at (b, r, u): column u of the fused product. -/
theorem pay2_apply (v0 : Vec Ideal S4x512x256 .f32) (v3 : Vec Ideal S256x192 .f32) (v7 : Vec Ideal S192 .f32)
    (b : Fin 4) (r : Fin 512) (u : Fin 64) :
    k0_pay2 (F := Ideal) v0 v3 v7 (ix3 b r u)
      = (∑ d : Fin 256, v0 (ix3 b r d) * v3 (ix2 d (⟨u.val, by omega⟩ : Fin 192)))
        + v7 (ix1 (⟨u.val, by omega⟩ : Fin 192)) := by
  unfold k0_pay2
  refine (cut_fold_apply (k0_pay1 (F := Ideal) v0 v3 v7) 0 slices_S2048x192_o0_0_S2048x64 b r u
    ⟨b.val * 512 + r.val, by omega⟩ rfl ⟨u.val, by omega⟩ (Nat.zero_add _).symm).trans ?_
  exact fused_apply v0 v3 v7 b r _ rfl _

/-- The second stored value (the keys) at (b, r, u): column 64 + u of the fused product. -/
theorem pay3_apply (v0 : Vec Ideal S4x512x256 .f32) (v3 : Vec Ideal S256x192 .f32) (v7 : Vec Ideal S192 .f32)
    (b : Fin 4) (r : Fin 512) (u : Fin 64) :
    k0_pay3 (F := Ideal) v0 v3 v7 (ix3 b r u)
      = (∑ d : Fin 256, v0 (ix3 b r d) * v3 (ix2 d (⟨64 + u.val, by omega⟩ : Fin 192)))
        + v7 (ix1 (⟨64 + u.val, by omega⟩ : Fin 192)) := by
  unfold k0_pay3
  refine (cut_fold_apply (k0_pay1 (F := Ideal) v0 v3 v7) 64 slices_S2048x192_o0_64_S2048x64 b r u
    ⟨b.val * 512 + r.val, by omega⟩ rfl ⟨64 + u.val, by omega⟩ rfl).trans ?_
  exact fused_apply v0 v3 v7 b r _ rfl _

/-- The third stored value (the values) at (b, r, u): column 128 + u of the fused product. -/
theorem pay4_apply (v0 : Vec Ideal S4x512x256 .f32) (v3 : Vec Ideal S256x192 .f32) (v7 : Vec Ideal S192 .f32)
    (b : Fin 4) (r : Fin 512) (u : Fin 64) :
    k0_pay4 (F := Ideal) v0 v3 v7 (ix3 b r u)
      = (∑ d : Fin 256, v0 (ix3 b r d) * v3 (ix2 d (⟨128 + u.val, by omega⟩ : Fin 192)))
        + v7 (ix1 (⟨128 + u.val, by omega⟩ : Fin 192)) := by
  unfold k0_pay4
  refine (cut_fold_apply (k0_pay1 (F := Ideal) v0 v3 v7) 128 slices_S2048x192_o0_128_S2048x64 b r u
    ⟨b.val * 512 + r.val, by omega⟩ rfl ⟨128 + u.val, by omega⟩ rfl).trans ?_
  exact fused_apply v0 v3 v7 b r _ rfl _

end Cert.KernelIdeal.Pay

end
-- ==== Proof.KIValueProj.lean ====
import proofs.«138785_j2147483648333_2_alg».proof.Proof.KIProjRegion
import proofs.«138785_j2147483648333_2_alg».proof.Proof.KIAttnRegion
import proofs.«138785_j2147483648333_2_alg».proof.Proof.Payload0
import proofs.«138785_j2147483648333_2_alg».proof.Proof.Spec
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Frame Cert.Attention

/-! # The projected arrays

After the projection launch each of its three output arrays holds, at batch `b`, row `s`, unit `u`, the
row of the input times one column of the fused weights plus one entry of the fused bias: the columns
0..63 for the first array, 64..127 for the second, 128..191 for the third.  Grid point `t` computes the
rows `512 t .. 512 t + 511` of every batch, so the eight points' blocks tile each array. -/

variable (V : (c : Dev nD) → (b : Ref sig .tc) → Buf (Elt Ideal) ((c : Thread nD τ).loc b))

/-- The three column ranges of the fused weights. -/
abbrev colQ (u : Fin 64) : Fin 192 := ⟨u.val, by omega⟩
abbrev colK (u : Fin 64) : Fin 192 := ⟨64 + u.val, by omega⟩
abbrev colV (u : Fin 64) : Fin 192 := ⟨128 + u.val, by omega⟩

/-- One entry of a projected array. -/
def projAt (X : S4x4096x256.Idx → EReal) (Wf : S256x192.Idx → EReal) (bf : S192.Idx → EReal) (col : Fin 64 → Fin 192)
    (b : Fin 4) (s : Fin 4096) (u : Fin 64) : EReal :=
  (∑ d : Fin 256, X (ix3 b s d) * Wf (ix2 d (col u))) + bf (ix1 (col u))

/-- A projected array as one function of its index. -/
def projArr (X : S4x4096x256.Idx → EReal) (Wf : S256x192.Idx → EReal) (bf : S192.Idx → EReal) (col : Fin 64 → Fin 192) :
    S4x4096x64.Idx → EReal :=
  fun i => projAt X Wf bf col (i 0) (i 1) (i 2)

theorem projArr_apply (X : S4x4096x256.Idx → EReal) (Wf : S256x192.Idx → EReal) (bf : S192.Idx → EReal) (col : Fin 64 → Fin 192)
    (b : Fin 4) (s : Fin 4096) (u : Fin 64) : projArr X Wf bf col (ix3 b s u) = projAt X Wf bf col b s u := rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the eight grid points: the row-block index is the point, every other block index zero. -/
theorem idx0 : ∀ t : Fin cfg0.N, win0_0.index t (0 : Fin 3) = 0 ∧ win0_0.index t (1 : Fin 3) = t.val ∧ win0_0.index t (2 : Fin 3) = 0
    ∧ win0_1.index t (0 : Fin 2) = 0 ∧ win0_1.index t (1 : Fin 2) = 0 ∧ win0_2.index t (0 : Fin 1) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0 :=
  (by decide +kernel : ∀ t : Fin grid0.N, _)

theorem row_lt (t : Fin cfg0.N) (r : Fin 512) : t.val * 512 + r.val < 4096 := by
  have h : t.val < 8 := lt_of_lt_of_eq t.isLt (show cfg0.N = 8 from N_0)
  omega

/-- The input block at point `t` is rows `512 t ..` of the input array. -/
theorem iblk0_0_apply (c : Dev nD) (t : Fin cfg0.N) (b : Fin 4) (r : Fin 512) (d : Fin 256) :
    (iblk0 V c 0 t : Vec Ideal S4x512x256 .f32) (ix3 b r d)
      = (V c main_arg0 : S4x4096x256.Idx → EReal) (ix3 b ⟨t.val * 512 + r.val, row_lt t r⟩ d) := by
  obtain ⟨e0, e1, e2, -⟩ := idx0 t
  unfold iblk0
  rw [View.read_apply]
  show V c main_arg0 _ = V c main_arg0 _
  refine congrArg _ ?_
  funext a
  apply Fin.ext
  match a with
  | ⟨0, _⟩ => show win0_0.index t (0 : Fin 3) * 4 + 1 * b.val = b.val; rw [e0]; omega
  | ⟨1, _⟩ => show win0_0.index t (1 : Fin 3) * 512 + 1 * r.val = t.val * 512 + r.val; rw [e1]; omega
  | ⟨2, _⟩ => show win0_0.index t (2 : Fin 3) * 256 + 1 * d.val = d.val; rw [e2]; omega

/-- The weight block at every point is the whole fused weight array. -/
theorem iblk0_1_apply (c : Dev nD) (t : Fin cfg0.N) (d : Fin 256) (n : Fin 192) :
    (iblk0 V c 1 t : Vec Ideal S256x192 .f32) (ix2 d n) = (V c main_v0 : S256x192.Idx → EReal) (ix2 d n) := by
  obtain ⟨-, -, -, e0, e1, -⟩ := idx0 t
  unfold iblk0
  rw [View.read_apply]
  show V c main_v0 _ = V c main_v0 _
  refine congrArg _ ?_
  funext a
  apply Fin.ext
  match a with
  | ⟨0, _⟩ => show win0_1.index t (0 : Fin 2) * 256 + 1 * d.val = d.val; rw [e0]; omega
  | ⟨1, _⟩ => show win0_1.index t (1 : Fin 2) * 192 + 1 * n.val = n.val; rw [e1]; omega

/-- The bias block at every point is the whole fused bias. -/
theorem iblk0_2_apply (c : Dev nD) (t : Fin cfg0.N) (n : Fin 192) :
    (iblk0 V c 2 t : Vec Ideal S192 .f32) (ix1 n) = (V c main_v1 : S192.Idx → EReal) (ix1 n) := by
  obtain ⟨-, -, -, -, -, e0, -⟩ := idx0 t
  unfold iblk0
  rw [View.read_apply]
  show V c main_v1 _ = V c main_v1 _
  refine congrArg _ ?_
  funext a
  apply Fin.ext
  match a with
  | ⟨0, _⟩ => show win0_2.index t (0 : Fin 1) * 192 + 1 * n.val = n.val; rw [e0]; omega

/-! ## Output window 3 -/

/-- An entry of the output block at point `t` sits at row `512 t + r` of its array. -/
theorem emb0_3 (t : Fin cfg0.N) (b : Fin 4) (r : Fin 512) (u : Fin 64) :
    ((cfg0.win 3).blk t).view.emb (ix3 b r u : S4x512x64.Idx) = (ix3 b ⟨t.val * 512 + r.val, row_lt t r⟩ u : S4x4096x64.Idx) := by
  obtain ⟨-, -, -, -, -, -, e0, e1, e2, -⟩ := idx0 t
  funext a
  apply Fin.ext
  match a with
  | ⟨0, _⟩ => show win0_3.index t (0 : Fin 3) * 4 + 1 * b.val = b.val; rw [e0]; omega
  | ⟨1, _⟩ => show win0_3.index t (1 : Fin 3) * 512 + 1 * r.val = t.val * 512 + r.val; rw [e1]; omega
  | ⟨2, _⟩ => show win0_3.index t (2 : Fin 3) * 64 + 1 * u.val = u.val; rw [e2]; omega

/-- What point `t` writes back through the window is block `t` of the projected array. -/
theorem flushed0_3_eq (c : Dev nD) (t : Fin cfg0.N) :
    (dat0 V c).flushed 3 t = ((cfg0.win 3).blk t).view.read (Elt Ideal) (projArr (V c main_arg0) (V c main_v0) (V c main_v1) colQ) := by
  show (cfg0.win 3).cut (grid0.coords t) ((dat0 V c).after 3 t) = _
  rw [after0_3]
  unfold out0_3
  rw [View.canon_unit_zero hz3]
  simp only [View.ld_unit_zero (S := S4x512x256) hz3, View.ld_unit_zero (S := S256x192) hz2, View.ld_unit_zero (S := S192) hz1]
  funext j
  obtain ⟨b, r, u, rfl⟩ : ∃ (b : Fin 4) (r : Fin 512) (u : Fin 64), j = (ix3 b r u : S4x512x64.Idx) :=
    ⟨j 0, j 1, j 2, eq_ix3 (n0 := 4) (n1 := 512) (n2 := 64) j⟩
  rw [View.read_apply, emb0_3 t b r u, projArr_apply]
  show k0_pay2 (F := Ideal) (iblk0 V c 0 t) (iblk0 V c 1 t) (iblk0 V c 2 t) (ix3 b r u) = _
  refine (Pay.pay2_apply _ _ _ b r u).trans ?_
  unfold projAt
  refine congrArg₂ (· + ·) (Finset.sum_congr rfl fun d _ => ?_) ?_
  · rw [iblk0_0_apply, iblk0_1_apply]
  · rw [iblk0_2_apply]

theorem mem_blk0_3 (t : Fin cfg0.N) (i : S4x4096x64.Idx) :
    i ∈ ((cfg0.win 3).blk t).view.set ↔ ∀ a : Fin 3, win0_3.index t a * S4x512x64.size a ≤ (i a).val ∧ (i a).val < win0_3.index t a * S4x512x64.size a + S4x512x64.size a := by
  show i ∈ ((View.whole main_v2_0).slice (win0_3.rect t)).set ↔ _
  rw [View.set_slice_whole, Rect.mem_set_unit]
  exact Iff.rfl

/-- Every index of the array lies in the block of the point its row falls in. -/
theorem cover0_3 (i : S4x4096x64.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 64 := (i 2).isLt
  have hN : cfg0.N = 8 := N_0
  refine ⟨⟨(i 1).val / 512, by rw [hN]; omega⟩, flush0_3 _, ?_⟩
  rw [mem_blk0_3]
  obtain ⟨-, -, -, -, -, -, e0, e1, e2, -⟩ := idx0 ⟨(i 1).val / 512, by rw [hN]; omega⟩
  intro a
  match a with
  | ⟨0, _⟩ => show win0_3.index _ (0 : Fin 3) * 4 ≤ (i 0).val ∧ (i 0).val < win0_3.index _ (0 : Fin 3) * 4 + 4; rw [e0]; omega
  | ⟨1, _⟩ => show win0_3.index _ (1 : Fin 3) * 512 ≤ (i 1).val ∧ (i 1).val < win0_3.index _ (1 : Fin 3) * 512 + 512; rw [e1]; show (i 1).val / 512 * 512 ≤ (i 1).val ∧ (i 1).val < (i 1).val / 512 * 512 + 512; omega
  | ⟨2, _⟩ => show win0_3.index _ (2 : Fin 3) * 64 ≤ (i 2).val ∧ (i 2).val < win0_3.index _ (2 : Fin 3) * 64 + 64; rw [e2]; omega

/-- After the launch the window's array is the projected array. -/
theorem arr0_3 (c : Dev nD) : (dat0 V c).arrAt 3 cfg0.N = projArr (V c main_arg0) (V c main_v0) (V c main_v1) colQ :=
  (dat0 V c).arrAt_eq_of_cover 3 _ (fun t _ => flushed0_3_eq V c t) cover0_3

/-! ## Output window 4 -/

/-- An entry of the output block at point `t` sits at row `512 t + r` of its array. -/
theorem emb0_4 (t : Fin cfg0.N) (b : Fin 4) (r : Fin 512) (u : Fin 64) :
    ((cfg0.win 4).blk t).view.emb (ix3 b r u : S4x512x64.Idx) = (ix3 b ⟨t.val * 512 + r.val, row_lt t r⟩ u : S4x4096x64.Idx) := by
  obtain ⟨-, -, -, -, -, -, -, -, -, e0, e1, e2, -⟩ := idx0 t
  funext a
  apply Fin.ext
  match a with
  | ⟨0, _⟩ => show win0_4.index t (0 : Fin 3) * 4 + 1 * b.val = b.val; rw [e0]; omega
  | ⟨1, _⟩ => show win0_4.index t (1 : Fin 3) * 512 + 1 * r.val = t.val * 512 + r.val; rw [e1]; omega
  | ⟨2, _⟩ => show win0_4.index t (2 : Fin 3) * 64 + 1 * u.val = u.val; rw [e2]; omega

/-- What point `t` writes back through the window is block `t` of the projected array. -/
theorem flushed0_4_eq (c : Dev nD) (t : Fin cfg0.N) :
    (dat0 V c).flushed 4 t = ((cfg0.win 4).blk t).view.read (Elt Ideal) (projArr (V c main_arg0) (V c main_v0) (V c main_v1) colK) := by
  show (cfg0.win 4).cut (grid0.coords t) ((dat0 V c).after 4 t) = _
  rw [after0_4]
  unfold out0_4
  rw [View.canon_unit_zero hz3]
  simp only [View.ld_unit_zero (S := S4x512x256) hz3, View.ld_unit_zero (S := S256x192) hz2, View.ld_unit_zero (S := S192) hz1]
  funext j
  obtain ⟨b, r, u, rfl⟩ : ∃ (b : Fin 4) (r : Fin 512) (u : Fin 64), j = (ix3 b r u : S4x512x64.Idx) :=
    ⟨j 0, j 1, j 2, eq_ix3 (n0 := 4) (n1 := 512) (n2 := 64) j⟩
  rw [View.read_apply, emb0_4 t b r u, projArr_apply]
  show k0_pay3 (F := Ideal) (iblk0 V c 0 t) (iblk0 V c 1 t) (iblk0 V c 2 t) (ix3 b r u) = _
  refine (Pay.pay3_apply _ _ _ b r u).trans ?_
  unfold projAt
  refine congrArg₂ (· + ·) (Finset.sum_congr rfl fun d _ => ?_) ?_
  · rw [iblk0_0_apply, iblk0_1_apply]
  · rw [iblk0_2_apply]

theorem mem_blk0_4 (t : Fin cfg0.N) (i : S4x4096x64.Idx) :
    i ∈ ((cfg0.win 4).blk t).view.set ↔ ∀ a : Fin 3, win0_4.index t a * S4x512x64.size a ≤ (i a).val ∧ (i a).val < win0_4.index t a * S4x512x64.size a + S4x512x64.size a := by
  show i ∈ ((View.whole main_v2_1).slice (win0_4.rect t)).set ↔ _
  rw [View.set_slice_whole, Rect.mem_set_unit]
  exact Iff.rfl

/-- Every index of the array lies in the block of the point its row falls in. -/
theorem cover0_4 (i : S4x4096x64.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 64 := (i 2).isLt
  have hN : cfg0.N = 8 := N_0
  refine ⟨⟨(i 1).val / 512, by rw [hN]; omega⟩, flush0_4 _, ?_⟩
  rw [mem_blk0_4]
  obtain ⟨-, -, -, -, -, -, -, -, -, e0, e1, e2, -⟩ := idx0 ⟨(i 1).val / 512, by rw [hN]; omega⟩
  intro a
  match a with
  | ⟨0, _⟩ => show win0_4.index _ (0 : Fin 3) * 4 ≤ (i 0).val ∧ (i 0).val < win0_4.index _ (0 : Fin 3) * 4 + 4; rw [e0]; omega
  | ⟨1, _⟩ => show win0_4.index _ (1 : Fin 3) * 512 ≤ (i 1).val ∧ (i 1).val < win0_4.index _ (1 : Fin 3) * 512 + 512; rw [e1]; show (i 1).val / 512 * 512 ≤ (i 1).val ∧ (i 1).val < (i 1).val / 512 * 512 + 512; omega
  | ⟨2, _⟩ => show win0_4.index _ (2 : Fin 3) * 64 ≤ (i 2).val ∧ (i 2).val < win0_4.index _ (2 : Fin 3) * 64 + 64; rw [e2]; omega

/-- After the launch the window's array is the projected array. -/
theorem arr0_4 (c : Dev nD) : (dat0 V c).arrAt 4 cfg0.N = projArr (V c main_arg0) (V c main_v0) (V c main_v1) colK :=
  (dat0 V c).arrAt_eq_of_cover 4 _ (fun t _ => flushed0_4_eq V c t) cover0_4

/-! ## Output window 5 -/

/-- An entry of the output block at point `t` sits at row `512 t + r` of its array. -/
theorem emb0_5 (t : Fin cfg0.N) (b : Fin 4) (r : Fin 512) (u : Fin 64) :
    ((cfg0.win 5).blk t).view.emb (ix3 b r u : S4x512x64.Idx) = (ix3 b ⟨t.val * 512 + r.val, row_lt t r⟩ u : S4x4096x64.Idx) := by
  obtain ⟨-, -, -, -, -, -, -, -, -, -, -, -, e0, e1, e2⟩ := idx0 t
  funext a
  apply Fin.ext
  match a with
  | ⟨0, _⟩ => show win0_5.index t (0 : Fin 3) * 4 + 1 * b.val = b.val; rw [e0]; omega
  | ⟨1, _⟩ => show win0_5.index t (1 : Fin 3) * 512 + 1 * r.val = t.val * 512 + r.val; rw [e1]; omega
  | ⟨2, _⟩ => show win0_5.index t (2 : Fin 3) * 64 + 1 * u.val = u.val; rw [e2]; omega

/-- What point `t` writes back through the window is block `t` of the projected array. -/
theorem flushed0_5_eq (c : Dev nD) (t : Fin cfg0.N) :
    (dat0 V c).flushed 5 t = ((cfg0.win 5).blk t).view.read (Elt Ideal) (projArr (V c main_arg0) (V c main_v0) (V c main_v1) colV) := by
  show (cfg0.win 5).cut (grid0.coords t) ((dat0 V c).after 5 t) = _
  rw [after0_5]
  unfold out0_5
  rw [View.canon_unit_zero hz3]
  simp only [View.ld_unit_zero (S := S4x512x256) hz3, View.ld_unit_zero (S := S256x192) hz2, View.ld_unit_zero (S := S192) hz1]
  funext j
  obtain ⟨b, r, u, rfl⟩ : ∃ (b : Fin 4) (r : Fin 512) (u : Fin 64), j = (ix3 b r u : S4x512x64.Idx) :=
    ⟨j 0, j 1, j 2, eq_ix3 (n0 := 4) (n1 := 512) (n2 := 64) j⟩
  rw [View.read_apply, emb0_5 t b r u, projArr_apply]
  show k0_pay4 (F := Ideal) (iblk0 V c 0 t) (iblk0 V c 1 t) (iblk0 V c 2 t) (ix3 b r u) = _
  refine (Pay.pay4_apply _ _ _ b r u).trans ?_
  unfold projAt
  refine congrArg₂ (· + ·) (Finset.sum_congr rfl fun d _ => ?_) ?_
  · rw [iblk0_0_apply, iblk0_1_apply]
  · rw [iblk0_2_apply]

theorem mem_blk0_5 (t : Fin cfg0.N) (i : S4x4096x64.Idx) :
    i ∈ ((cfg0.win 5).blk t).view.set ↔ ∀ a : Fin 3, win0_5.index t a * S4x512x64.size a ≤ (i a).val ∧ (i a).val < win0_5.index t a * S4x512x64.size a + S4x512x64.size a := by
  show i ∈ ((View.whole main_v2_2).slice (win0_5.rect t)).set ↔ _
  rw [View.set_slice_whole, Rect.mem_set_unit]
  exact Iff.rfl

/-- Every index of the array lies in the block of the point its row falls in. -/
theorem cover0_5 (i : S4x4096x64.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 64 := (i 2).isLt
  have hN : cfg0.N = 8 := N_0
  refine ⟨⟨(i 1).val / 512, by rw [hN]; omega⟩, flush0_5 _, ?_⟩
  rw [mem_blk0_5]
  obtain ⟨-, -, -, -, -, -, -, -, -, -, -, -, e0, e1, e2⟩ := idx0 ⟨(i 1).val / 512, by rw [hN]; omega⟩
  intro a
  match a with
  | ⟨0, _⟩ => show win0_5.index _ (0 : Fin 3) * 4 ≤ (i 0).val ∧ (i 0).val < win0_5.index _ (0 : Fin 3) * 4 + 4; rw [e0]; omega
  | ⟨1, _⟩ => show win0_5.index _ (1 : Fin 3) * 512 ≤ (i 1).val ∧ (i 1).val < win0_5.index _ (1 : Fin 3) * 512 + 512; rw [e1]; show (i 1).val / 512 * 512 ≤ (i 1).val ∧ (i 1).val < (i 1).val / 512 * 512 + 512; omega
  | ⟨2, _⟩ => show win0_5.index _ (2 : Fin 3) * 64 ≤ (i 2).val ∧ (i 2).val < win0_5.index _ (2 : Fin 3) * 64 + 64; rw [e2]; omega

/-- After the launch the window's array is the projected array. -/
theorem arr0_5 (c : Dev nD) : (dat0 V c).arrAt 5 cfg0.N = projArr (V c main_arg0) (V c main_v0) (V c main_v1) colV :=
  (dat0 V c).arrAt_eq_of_cover 5 _ (fun t _ => flushed0_5_eq V c t) cover0_5

end Cert.KernelIdeal.Val

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.Payload1Steps.lean ====
/-
  The pieces of the attention kernel's body read at one entry, over variables.

  The body scales a score matrix s by a constant, takes each row's maximum m from minus infinity, forms
  e = exp(s − m), sums each row of e from zero, multiplies e by the value matrix into a zero accumulator and divides
  each row by its total. Each lemma here reads one non-pointwise step at (p, ·): the row maximum spread back over
  the row, the row total spread over the output columns, the product into the zero accumulator, and the scaled
  score product itself. All at the exact (extended real) reading of floats, where roundings are the identity.
-/
import proofs.«138785_j2147483648333_2_alg».proof.Proof.Gen.KernelIdeal.Skeleton
import proofs.«138785_j2147483648333_2_alg».proof.Proof.Spec
import proofs.«138785_j2147483648333_2_alg».proof.Proof.LibPlainContract
import proofs.«138785_j2147483648333_2_alg».proof.Proof.LibKeepdims
import proofs.«138785_j2147483648333_2_alg».proof.Proof.LibRowFold
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Cert.Attention Idealize.ShloMosaic Idealize.ShloMosaic.ValueIdx

variable [Cert.KernelIdeal.Facts]

/-- The row maximum from minus infinity, kept as a column and spread over the row: at (p, t) it is the maximum of
    row p. -/
theorem rowMaxSpread_apply (s : FVec Ideal S256x4096 .f32) (hφ : FKind.Formats .f32)
    (hacc : (0xFF800000#32 : BitVec 32) = FKind.maximumf.neutral .f32 hφ) (p : Fin 256) (t : Fin 4096) :
    broadcastTo S256x4096
        (shapeCast S256x1 (multiReduction .maximumf [1] S256 s 0xFF800000#32 reduces_S256x4096_S256 hφ hacc)
          shapeCasts_S256_S256x1)
        broadcasts_S256x1_S256x4096 (ix2 p t)
      = rowMax (fun k => s (ix2 p k)) :=
  (Cert.Lib.Keepdims.broadcastTo_a1_ab_apply _ broadcasts_S256x1_S256x4096 p t).trans
    ((Cert.Lib.Keepdims.shapeCast_a_a1_apply _ shapeCasts_S256_S256x1 p (0 : Fin 1)).trans
      (Cert.Lib.RowFold.multiReduction_maximumf_row s 0xFF800000#32 reduces_S256x4096_S256 hφ hacc p))

/-- The shifted exponential at (p, t), given the row's scores as a function `sc`. -/
theorem expShift_apply (s : FVec Ideal S256x4096 .f32) (hφ : FKind.Formats .f32)
    (hacc : (0xFF800000#32 : BitVec 32) = FKind.maximumf.neutral .f32 hφ) (p : Fin 256)
    (sc : Fin 4096 → EReal) (hs : ∀ t, s (ix2 p t) = sc t) (t : Fin 4096) :
    exp (subf s (broadcastTo S256x4096
        (shapeCast S256x1 (multiReduction .maximumf [1] S256 s 0xFF800000#32 reduces_S256x4096_S256 hφ hacc)
          shapeCasts_S256_S256x1)
        broadcasts_S256x1_S256x4096)) (ix2 p t)
      = rowExp sc t := by
  have e : (fun k => s (ix2 p k)) = sc := funext hs
  show Ideal.exp (s (ix2 p t) - _) = Ideal.exp (sc t - rowMax sc)
  rw [rowMaxSpread_apply s hφ hacc p t, e, hs t]

/-- A row total from zero, kept as a column and spread over 64 columns: at (p, u) it is the sum of row p. -/
theorem rowSumSpread_apply (x : FVec Ideal S256x4096 .f32) (hφ : FKind.Formats .f32)
    (hacc : (0x00000000#32 : BitVec 32) = FKind.add.neutral .f32 hφ) (p : Fin 256) (u : Fin 64) :
    broadcastTo S256x64
        (shapeCast S256x1 (multiReduction .add [1] S256 x 0x00000000#32 reduces_S256x4096_S256 hφ hacc)
          shapeCasts_S256_S256x1)
        broadcasts_S256x1_S256x64 (ix2 p u)
      = ∑ k : Fin 4096, x (ix2 p k) :=
  (Cert.Lib.Keepdims.broadcastTo_a1_ab_apply _ broadcasts_S256x1_S256x64 p u).trans
    ((Cert.Lib.Keepdims.shapeCast_a_a1_apply _ shapeCasts_S256_S256x1 p (0 : Fin 1)).trans
      (Cert.Lib.RowFold.multiReduction_add_row x 0x00000000#32 reduces_S256x4096_S256 hφ hacc p))

/-- The weights (rounded, which is the identity here) times the value matrix into the zero accumulator, at (p, u). -/
theorem weighted_apply (w : FVec Ideal S256x4096 .f32) (V : FVec Ideal S4096x64 .bf16) (p : Fin 256) (u : Fin 64) :
    matmul dot_S256x4096_S4096x64_S256x64_1_0_0_1_n_n none (truncf .bf16 w bitsLt_bf16_f32) V
        (constant (F := Ideal) S256x64 .f32 0x00000000#32) (ix2 p u)
      = ∑ t : Fin 4096, w (ix2 p t) * V (ix2 t u) :=
  Cert.LibPlainContract.matmul_plain_apply 256 4096 64 none (truncf .bf16 w bitsLt_bf16_f32) V p u

/-- The scaled scores at (p, t): the product of query row p with key row t, times one eighth. -/
theorem scores_apply (v0 : Vec Ideal S1x256x64 .bf16) (v2 : Vec Ideal S1x4096x64 .bf16) (p : Fin 256) (t : Fin 4096) :
    mulf
        (matmul (φ₁ := .bf16) (φ₂ := .bf16) dot_S256x64_S64x4096_S256x4096_1_0_0_1_n_n none
          (shapeCast S256x64 v0 shapeCasts_S1x256x64_S256x64)
          (transpose S64x4096 [1, 0] (shapeCast S4096x64 v2 shapeCasts_S1x4096x64_S4096x64)
            transposes_S4096x64_p1_0_S64x4096)
          (constant (F := Ideal) S256x4096 .f32 0x00000000#32))
        (broadcast S256x4096 (Scalar.ofBits (F := Ideal) .f32 0x3E000000#32)) (ix2 p t)
      = (∑ e : Fin 64, v0 (ix3 (0 : Fin 1) p e) * v2 (ix3 (0 : Fin 1) t e)) * eighth := by
  refine congrArg (· * eighth) ?_
  refine (Cert.LibPlainContract.matmul_plain_apply 256 64 4096 none _ _ p t).trans ?_
  refine Finset.sum_congr rfl fun e _ => ?_
  exact congrArg₂ (· * ·)
    (shapeCast_1ab_ab_apply v0 shapeCasts_S1x256x64_S256x64 p e)
    ((transpose_ix2_apply _ transposes_S4096x64_p1_0_S64x4096 e t).trans
      (shapeCast_1ab_ab_apply v2 shapeCasts_S1x4096x64_S4096x64 t e))

end Cert.KernelIdeal.Pay

end
-- ==== Proof.Payload1.lean ====
/-
  The attention kernel's stored value read at one entry.

  For one block of 256 query rows against all 4096 key and value rows of one batch, the body computes the scores
  s = q·kᵀ scaled by one eighth, each row's maximum m from minus infinity, e = exp(s − m), the row totals l, the product
  e·v, and stores (e·v) / l. Read at query row p and unit u this is the quotient of the softmax-weighted sum of column
  u of v by the row's total: the function `attnK` of the row's scaled scores and of the column of v.
-/
import proofs.«138785_j2147483648333_2_alg».proof.Proof.Payload1Steps

noncomputable section

open scoped BigOperators

namespace Cert.KernelIdeal.Pay

open Cert.KernelIdeal Cert.KernelIdeal.Gen Cert.Attention Idealize.ShloMosaic Idealize.ShloMosaic.ValueIdx

variable [Cert.KernelIdeal.Facts]

/-- The stored value at (0, p, u): one division of the weighted sum of column u of the values by the row's total,
    with the weights the shifted exponentials of query row p's scaled scores. -/
theorem pay1_apply (v0 : Vec Ideal S1x256x64 .bf16) (v2 v4 : Vec Ideal S1x4096x64 .bf16) (p : Fin 256) (u : Fin 64) :
    k1_pay1 (F := Ideal) v0 v2 v4 (ix3 (0 : Fin 1) p u)
      = attnK (fun t => (∑ e : Fin 64, v0 (ix3 (0 : Fin 1) p e) * v2 (ix3 (0 : Fin 1) t e)) * eighth)
          (fun t => v4 (ix3 (0 : Fin 1) t u)) := by
  unfold k1_pay1
  refine (shapeCast_ab_1ab_apply _ shapeCasts_S256x64_S1x256x64 (0 : Fin 1) p u).trans ?_
  unfold attnK
  refine congrArg₂ Ideal.div ?_ ?_
  · refine (weighted_apply _ _ p u).trans ?_
    refine Finset.sum_congr rfl fun t _ => ?_
    exact congrArg₂ (· * ·)
      (expShift_apply _ _ _ p _ (fun k => scores_apply v0 v2 p k) t)
      (shapeCast_1ab_ab_apply v4 shapeCasts_S1x4096x64_S4096x64 t u)
  · refine (rowSumSpread_apply _ _ _ p u).trans ?_
    unfold rowTotal
    refine Finset.sum_congr rfl fun t _ => ?_
    exact expShift_apply _ _ _ p _ (fun k => scores_apply v0 v2 p k) t

end Cert.KernelIdeal.Pay

end
-- ==== Proof.KIValueAttn.lean ====
import proofs.«138785_j2147483648333_2_alg».proof.Proof.KIProjRegion
import proofs.«138785_j2147483648333_2_alg».proof.Proof.KIAttnRegion
import proofs.«138785_j2147483648333_2_alg».proof.Proof.Payload1
import proofs.«138785_j2147483648333_2_alg».proof.Proof.Spec
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Frame Cert.Attention

/-! # The attention array

After the attention launch its output array holds, at batch `b`, query row `s`, unit `u`, the softmax of
the scaled scores of row `s` against every key row of the batch, applied to column `u` of the batch's
values — with the division by the row's total done last.  Grid point `g` is batch `g / 16`, query tile
`g % 16`; it reads the tile's 256 query rows and all 4096 key and value rows of the batch, and the 64
points' output blocks tile the array. -/

variable (V : (c : Dev nD) → (b : Ref sig .tc) → Buf (Elt Ideal) ((c : Thread nD τ).loc b))

/-- One entry of the attention array, from the three projected arrays. -/
def attnAt (Q K Vv : S4x4096x64.Idx → EReal) (b : Fin 4) (s : Fin 4096) (u : Fin 64) : EReal :=
  attnK (fun t => (∑ e : Fin 64, Q (ix3 b s e) * K (ix3 b t e)) * eighth) (fun t => Vv (ix3 b t u))

/-- The attention array as one function of its index. -/
def attnArr (Q K Vv : S4x4096x64.Idx → EReal) : S4x4096x64.Idx → EReal :=
  fun i => attnAt Q K Vv (i 0) (i 1) (i 2)

theorem attnArr_apply (Q K Vv : S4x4096x64.Idx → EReal) (b : Fin 4) (s : Fin 4096) (u : Fin 64) :
    attnArr Q K Vv (ix3 b s u) = attnAt Q K Vv b s u := rfl

theorem hz3' : (![0, 0, 0] : Fin 3 → Nat) = fun _ => 0 := funext fun a => by fin_cases a <;> rfl

/-- The printed index maps over the 64 grid points. -/
theorem idx1 : ∀ g : Fin cfg1.N, win1_0.index g (0 : Fin 3) = g.val / 16 ∧ win1_0.index g (1 : Fin 3) = g.val % 16 ∧ win1_0.index g (2 : Fin 3) = 0
    ∧ win1_1.index g (0 : Fin 3) = g.val / 16 ∧ win1_1.index g (1 : Fin 3) = 0 ∧ win1_1.index g (2 : Fin 3) = 0
    ∧ win1_2.index g (0 : Fin 3) = g.val / 16 ∧ win1_2.index g (1 : Fin 3) = 0 ∧ win1_2.index g (2 : Fin 3) = 0
    ∧ win1_3.index g (0 : Fin 3) = g.val / 16 ∧ win1_3.index g (1 : Fin 3) = g.val % 16 ∧ win1_3.index g (2 : Fin 3) = 0 :=
  (by decide +kernel : ∀ g : Fin grid1.N, _)

theorem bat_lt (g : Fin cfg1.N) : g.val / 16 < 4 := by
  have h : g.val < 64 := lt_of_lt_of_eq g.isLt (show cfg1.N = 64 from N_1)
  omega
theorem qrow_lt (g : Fin cfg1.N) (p : Fin 256) : g.val % 16 * 256 + p.val < 4096 := by omega

/-- The query block at point `g`: rows of tile `g % 16` of batch `g / 16`. -/
theorem iblk1_0_apply (c : Dev nD) (g : Fin cfg1.N) (p : Fin 256) (e : Fin 64) :
    (iblk1 V c 0 g : Vec Ideal S1x256x64 .bf16) (ix3 (0 : Fin 1) p e)
      = (V c main_v2_0 : S4x4096x64.Idx → EReal) (ix3 ⟨g.val / 16, bat_lt g⟩ ⟨g.val % 16 * 256 + p.val, qrow_lt g p⟩ e) := by
  obtain ⟨e0, e1, e2, -⟩ := idx1 g
  unfold iblk1
  rw [View.read_apply]
  show V c main_v2_0 _ = V c main_v2_0 _
  refine congrArg _ ?_
  funext a
  apply Fin.ext
  match a with
  | ⟨0, _⟩ => show win1_0.index g (0 : Fin 3) * 1 + 1 * (0 : Fin 1).val = g.val / 16; rw [e0]; simp
  | ⟨1, _⟩ => show win1_0.index g (1 : Fin 3) * 256 + 1 * p.val = g.val % 16 * 256 + p.val; rw [e1]; omega
  | ⟨2, _⟩ => show win1_0.index g (2 : Fin 3) * 64 + 1 * e.val = e.val; rw [e2]; omega

/-- The key block at point `g`: every row of batch `g / 16`. -/
theorem iblk1_1_apply (c : Dev nD) (g : Fin cfg1.N) (s : Fin 4096) (e : Fin 64) :
    (iblk1 V c 1 g : Vec Ideal S1x4096x64 .bf16) (ix3 (0 : Fin 1) s e)
      = (V c main_v2_1 : S4x4096x64.Idx → EReal) (ix3 ⟨g.val / 16, bat_lt g⟩ s e) := by
  obtain ⟨-, -, -, e0, e1, e2, -⟩ := idx1 g
  unfold iblk1
  rw [View.read_apply]
  show V c main_v2_1 _ = V c main_v2_1 _
  refine congrArg _ ?_
  funext a
  apply Fin.ext
  match a with
  | ⟨0, _⟩ => show win1_1.index g (0 : Fin 3) * 1 + 1 * (0 : Fin 1).val = g.val / 16; rw [e0]; simp
  | ⟨1, _⟩ => show win1_1.index g (1 : Fin 3) * 4096 + 1 * s.val = s.val; rw [e1]; omega
  | ⟨2, _⟩ => show win1_1.index g (2 : Fin 3) * 64 + 1 * e.val = e.val; rw [e2]; omega

/-- The value block at point `g`: every row of batch `g / 16`. -/
theorem iblk1_2_apply (c : Dev nD) (g : Fin cfg1.N) (s : Fin 4096) (e : Fin 64) :
    (iblk1 V c 2 g : Vec Ideal S1x4096x64 .bf16) (ix3 (0 : Fin 1) s e)
      = (V c main_v2_2 : S4x4096x64.Idx → EReal) (ix3 ⟨g.val / 16, bat_lt g⟩ s e) := by
  obtain ⟨-, -, -, -, -, -, e0, e1, e2, -⟩ := idx1 g
  unfold iblk1
  rw [View.read_apply]
  show V c main_v2_2 _ = V c main_v2_2 _
  refine congrArg _ ?_
  funext a
  apply Fin.ext
  match a with
  | ⟨0, _⟩ => show win1_2.index g (0 : Fin 3) * 1 + 1 * (0 : Fin 1).val = g.val / 16; rw [e0]; simp
  | ⟨1, _⟩ => show win1_2.index g (1 : Fin 3) * 4096 + 1 * s.val = s.val; rw [e1]; omega
  | ⟨2, _⟩ => show win1_2.index g (2 : Fin 3) * 64 + 1 * e.val = e.val; rw [e2]; omega

/-- An entry of the output block at point `g` sits in batch `g / 16` at row `256 (g % 16) + p`. -/
theorem emb1_3 (g : Fin cfg1.N) (p : Fin 256) (u : Fin 64) :
    ((cfg1.win 3).blk g).view.emb (ix3 (0 : Fin 1) p u : S1x256x64.Idx)
      = (ix3 ⟨g.val / 16, bat_lt g⟩ ⟨g.val % 16 * 256 + p.val, qrow_lt g p⟩ u : S4x4096x64.Idx) := by
  obtain ⟨-, -, -, -, -, -, -, -, -, e0, e1, e2⟩ := idx1 g
  funext a
  apply Fin.ext
  match a with
  | ⟨0, _⟩ => show win1_3.index g (0 : Fin 3) * 1 + 1 * (0 : Fin 1).val = g.val / 16; rw [e0]; simp
  | ⟨1, _⟩ => show win1_3.index g (1 : Fin 3) * 256 + 1 * p.val = g.val % 16 * 256 + p.val; rw [e1]; omega
  | ⟨2, _⟩ => show win1_3.index g (2 : Fin 3) * 64 + 1 * u.val = u.val; rw [e2]; omega

/-- What point `g` writes back is block `g` of the attention array of the three arrays the launch reads. -/
theorem flushed1_3_eq (c : Dev nD) (g : Fin cfg1.N) :
    (dat1 V c).flushed 3 g = ((cfg1.win 3).blk g).view.read (Elt Ideal) (attnArr (V c main_v2_0) (V c main_v2_1) (V c main_v2_2)) := by
  show (cfg1.win 3).cut (grid1.coords g) ((dat1 V c).after 3 g) = _
  rw [after1_3]
  unfold out1_3
  rw [View.canon_unit_zero hz3']
  simp only [View.ld_unit_zero (S := S1x256x64) hz3', View.ld_unit_zero (S := S1x4096x64) hz3']
  funext j
  obtain ⟨z, p, u, rfl⟩ : ∃ (z : Fin 1) (p : Fin 256) (u : Fin 64), j = (ix3 z p u : S1x256x64.Idx) :=
    ⟨j 0, j 1, j 2, eq_ix3 (n0 := 1) (n1 := 256) (n2 := 64) j⟩
  obtain rfl : z = 0 := Subsingleton.elim _ _
  rw [View.read_apply, emb1_3 g p u, attnArr_apply]
  show k1_pay1 (F := Ideal) (iblk1 V c 0 g) (iblk1 V c 1 g) (iblk1 V c 2 g) (ix3 (0 : Fin 1) p u) = _
  refine (Pay.pay1_apply _ _ _ p u).trans ?_
  unfold attnAt
  refine congrArg₂ attnK (funext fun s => ?_) (funext fun s => ?_)
  · refine congrArg (· * eighth) (Finset.sum_congr rfl fun e _ => ?_)
    rw [iblk1_0_apply, iblk1_1_apply]
  · rw [iblk1_2_apply]

theorem mem_blk1_3 (g : Fin cfg1.N) (i : S4x4096x64.Idx) :
    i ∈ ((cfg1.win 3).blk g).view.set ↔ ∀ a : Fin 3, win1_3.index g a * S1x256x64.size a ≤ (i a).val ∧ (i a).val < win1_3.index g a * S1x256x64.size a + S1x256x64.size a := by
  show i ∈ ((View.whole main_v3).slice (win1_3.rect g)).set ↔ _
  rw [View.set_slice_whole, Rect.mem_set_unit]
  exact Iff.rfl

/-- Every index of the array lies in the block of the point its batch and query tile name. -/
theorem cover1_3 (i : S4x4096x64.Idx) : ∃ g : Fin cfg1.N, (cfg1.win 3).flush g = true ∧ i ∈ ((cfg1.win 3).blk g).view.set := by
  have h0 : (i 0).val < 4 := (i 0).isLt
  have h1 : (i 1).val < 4096 := (i 1).isLt
  have h2 : (i 2).val < 64 := (i 2).isLt
  have hN : cfg1.N = 64 := N_1
  refine ⟨⟨(i 0).val * 16 + (i 1).val / 256, by rw [hN]; omega⟩, flush1_3 _, ?_⟩
  rw [mem_blk1_3]
  obtain ⟨-, -, -, -, -, -, -, -, -, e0, e1, e2⟩ := idx1 ⟨(i 0).val * 16 + (i 1).val / 256, by rw [hN]; omega⟩
  intro a
  match a with
  | ⟨0, _⟩ => show win1_3.index _ (0 : Fin 3) * 1 ≤ (i 0).val ∧ (i 0).val < win1_3.index _ (0 : Fin 3) * 1 + 1; rw [e0]; show ((i 0).val * 16 + (i 1).val / 256) / 16 * 1 ≤ (i 0).val ∧ (i 0).val < ((i 0).val * 16 + (i 1).val / 256) / 16 * 1 + 1; omega
  | ⟨1, _⟩ => show win1_3.index _ (1 : Fin 3) * 256 ≤ (i 1).val ∧ (i 1).val < win1_3.index _ (1 : Fin 3) * 256 + 256; rw [e1]; show ((i 0).val * 16 + (i 1).val / 256) % 16 * 256 ≤ (i 1).val ∧ (i 1).val < ((i 0).val * 16 + (i 1).val / 256) % 16 * 256 + 256; omega
  | ⟨2, _⟩ => show win1_3.index _ (2 : Fin 3) * 64 ≤ (i 2).val ∧ (i 2).val < win1_3.index _ (2 : Fin 3) * 64 + 64; rw [e2]; omega

/-- After the launch the output array is the attention array of the three arrays the launch reads. -/
theorem arr1_3 (c : Dev nD) : (dat1 V c).arrAt 3 cfg1.N = attnArr (V c main_v2_0) (V c main_v2_1) (V c main_v2_2) :=
  (dat1 V c).arrAt_eq_of_cover 3 _ (fun g _ => flushed1_3_eq V c g) cover1_3

end Cert.KernelIdeal.Val

end
-- ==== Proof.ConcatRead.lean ====
import Idealize.ShloMosaic.Lib.Pipeline.Value
import Idealize.ShloMosaic.Lib.ValueIdx

/-!
  Three matrices joined along their columns, and three vectors joined end to end, read at an index.

  The joined matrix has 192 columns: columns 0–63 are the first matrix's, 64–127 the second's, 128–191 the
  third's; likewise the joined vector's 192 entries.  Each statement names the piece, the number of columns
  (entries) before it, and the index inside the piece with the same row.
-/

namespace Cert.Attention.Concat

open Idealize.ShloMosaic Idealize.ShloMosaic.ValueIdx

variable {α : Type}

/-! ### The matrices, joined along axis 1 -/

/-- Columns 0–63 of the joined matrix are the first matrix. -/
theorem concatW_apply0 (W0 W1 W2 : (⟨2, ![256, 64]⟩ : Shape).Idx → α)
    (h : Shape.Concatenates [(⟨2, ![256, 64]⟩ : Shape), ⟨2, ![256, 64]⟩, ⟨2, ![256, 64]⟩] ⟨2, ![256, 192]⟩ 1)
    (d : Fin 256) (u : Fin 64) :
    concatenate (⟨2, ![256, 192]⟩ : Shape) 1 [⟨⟨2, ![256, 64]⟩, W0⟩, ⟨⟨2, ![256, 64]⟩, W1⟩, ⟨⟨2, ![256, 64]⟩, W2⟩] h
        (ix2 d (⟨u.val, by omega⟩ : Fin 192)) = W0 (ix2 d u) := by
  refine concatenate_apply_piece (t := ⟨2, ![256, 192]⟩) 1
    [⟨⟨2, ![256, 64]⟩, W0⟩, ⟨⟨2, ![256, 64]⟩, W1⟩, ⟨⟨2, ![256, 64]⟩, W2⟩] h _ 0 (by simp) ⟨2, ![256, 64]⟩ W0 rfl rfl 0 rfl (ix2 d u) ?_ ?_
  · intro b hb
    match b with
    | ⟨0, _⟩ => rfl
    | ⟨1, _⟩ => exact absurd rfl hb
  · exact Nat.zero_add _

/-- Columns 64–127 of the joined matrix are the second matrix. -/
theorem concatW_apply1 (W0 W1 W2 : (⟨2, ![256, 64]⟩ : Shape).Idx → α)
    (h : Shape.Concatenates [(⟨2, ![256, 64]⟩ : Shape), ⟨2, ![256, 64]⟩, ⟨2, ![256, 64]⟩] ⟨2, ![256, 192]⟩ 1)
    (d : Fin 256) (u : Fin 64) :
    concatenate (⟨2, ![256, 192]⟩ : Shape) 1 [⟨⟨2, ![256, 64]⟩, W0⟩, ⟨⟨2, ![256, 64]⟩, W1⟩, ⟨⟨2, ![256, 64]⟩, W2⟩] h
        (ix2 d (⟨64 + u.val, by omega⟩ : Fin 192)) = W1 (ix2 d u) := by
  refine concatenate_apply_piece (t := ⟨2, ![256, 192]⟩) 1
    [⟨⟨2, ![256, 64]⟩, W0⟩, ⟨⟨2, ![256, 64]⟩, W1⟩, ⟨⟨2, ![256, 64]⟩, W2⟩] h _ 1 (by simp) ⟨2, ![256, 64]⟩ W1 rfl rfl 64 rfl (ix2 d u) ?_ ?_
  · intro b hb
    match b with
    | ⟨0, _⟩ => rfl
    | ⟨1, _⟩ => exact absurd rfl hb
  · rfl

/-- Columns 128–191 of the joined matrix are the third matrix. -/
theorem concatW_apply2 (W0 W1 W2 : (⟨2, ![256, 64]⟩ : Shape).Idx → α)
    (h : Shape.Concatenates [(⟨2, ![256, 64]⟩ : Shape), ⟨2, ![256, 64]⟩, ⟨2, ![256, 64]⟩] ⟨2, ![256, 192]⟩ 1)
    (d : Fin 256) (u : Fin 64) :
    concatenate (⟨2, ![256, 192]⟩ : Shape) 1 [⟨⟨2, ![256, 64]⟩, W0⟩, ⟨⟨2, ![256, 64]⟩, W1⟩, ⟨⟨2, ![256, 64]⟩, W2⟩] h
        (ix2 d (⟨128 + u.val, by omega⟩ : Fin 192)) = W2 (ix2 d u) := by
  refine concatenate_apply_piece (t := ⟨2, ![256, 192]⟩) 1
    [⟨⟨2, ![256, 64]⟩, W0⟩, ⟨⟨2, ![256, 64]⟩, W1⟩, ⟨⟨2, ![256, 64]⟩, W2⟩] h _ 2 (by simp) ⟨2, ![256, 64]⟩ W2 rfl rfl 128 rfl (ix2 d u) ?_ ?_
  · intro b hb
    match b with
    | ⟨0, _⟩ => rfl
    | ⟨1, _⟩ => exact absurd rfl hb
  · rfl

/-! ### The vectors, joined along axis 0 -/

/-- Entries 0–63 of the joined vector are the first vector. -/
theorem concatB_apply0 (b0 b1 b2 : (⟨1, ![64]⟩ : Shape).Idx → α)
    (h : Shape.Concatenates [(⟨1, ![64]⟩ : Shape), ⟨1, ![64]⟩, ⟨1, ![64]⟩] ⟨1, ![192]⟩ 0) (u : Fin 64) :
    concatenate (⟨1, ![192]⟩ : Shape) 0 [⟨⟨1, ![64]⟩, b0⟩, ⟨⟨1, ![64]⟩, b1⟩, ⟨⟨1, ![64]⟩, b2⟩] h
        (ix1 (⟨u.val, by omega⟩ : Fin 192)) = b0 (ix1 u) := by
  refine concatenate_apply_piece (t := ⟨1, ![192]⟩) 0
    [⟨⟨1, ![64]⟩, b0⟩, ⟨⟨1, ![64]⟩, b1⟩, ⟨⟨1, ![64]⟩, b2⟩] h _ 0 (by simp) ⟨1, ![64]⟩ b0 rfl rfl 0 rfl (ix1 u) ?_ ?_
  · intro b hb
    match b with
    | ⟨0, _⟩ => exact absurd rfl hb
  · exact Nat.zero_add _

/-- Entries 64–127 of the joined vector are the second vector. -/
theorem concatB_apply1 (b0 b1 b2 : (⟨1, ![64]⟩ : Shape).Idx → α)
    (h : Shape.Concatenates [(⟨1, ![64]⟩ : Shape), ⟨1, ![64]⟩, ⟨1, ![64]⟩] ⟨1, ![192]⟩ 0) (u : Fin 64) :
    concatenate (⟨1, ![192]⟩ : Shape) 0 [⟨⟨1, ![64]⟩, b0⟩, ⟨⟨1, ![64]⟩, b1⟩, ⟨⟨1, ![64]⟩, b2⟩] h
        (ix1 (⟨64 + u.val, by omega⟩ : Fin 192)) = b1 (ix1 u) := by
  refine concatenate_apply_piece (t := ⟨1, ![192]⟩) 0
    [⟨⟨1, ![64]⟩, b0⟩, ⟨⟨1, ![64]⟩, b1⟩, ⟨⟨1, ![64]⟩, b2⟩] h _ 1 (by simp) ⟨1, ![64]⟩ b1 rfl rfl 64 rfl (ix1 u) ?_ ?_
  · intro b hb
    match b with
    | ⟨0, _⟩ => exact absurd rfl hb
  · rfl

/-- Entries 128–191 of the joined vector are the third vector. -/
theorem concatB_apply2 (b0 b1 b2 : (⟨1, ![64]⟩ : Shape).Idx → α)
    (h : Shape.Concatenates [(⟨1, ![64]⟩ : Shape), ⟨1, ![64]⟩, ⟨1, ![64]⟩] ⟨1, ![192]⟩ 0) (u : Fin 64) :
    concatenate (⟨1, ![192]⟩ : Shape) 0 [⟨⟨1, ![64]⟩, b0⟩, ⟨⟨1, ![64]⟩, b1⟩, ⟨⟨1, ![64]⟩, b2⟩] h
        (ix1 (⟨128 + u.val, by omega⟩ : Fin 192)) = b2 (ix1 u) := by
  refine concatenate_apply_piece (t := ⟨1, ![192]⟩) 0
    [⟨⟨1, ![64]⟩, b0⟩, ⟨⟨1, ![64]⟩, b1⟩, ⟨⟨1, ![64]⟩, b2⟩] h _ 2 (by simp) ⟨1, ![64]⟩ b2 rfl rfl 128 rfl (ix1 u) ?_ ?_
  · intro b hb
    match b with
    | ⟨0, _⟩ => exact absurd rfl hb
  · rfl

end Cert.Attention.Concat
-- ==== Proof.KIValue.lean ====
import proofs.«138785_j2147483648333_2_alg».proof.Proof.KIRun
import proofs.«138785_j2147483648333_2_alg».proof.Proof.KIValueProj
import proofs.«138785_j2147483648333_2_alg».proof.Proof.KIValueAttn
import proofs.«138785_j2147483648333_2_alg».proof.Proof.ConcatRead
import proofs.«138785_j2147483648333_2_alg».proof.Proof.Spec
import Idealize.ShloMosaic.Lib.Pipeline.Value
import Idealize.ShloMosaic.Lib.StableHlo.Run
import Idealize.ShloMosaic.Lib.ValueIdx
import Idealize.ShloMosaic.Lib.Tactic

/-!
  # The kernel program's result as one function of its arguments

  The host stretch joins the three weight matrices along their columns and the three biases end to
  end; the projection launch leaves the three projected arrays, whose fused columns 0..63, 64..127 and
  128..191 are the query, key and value projections with their own weights and biases; the attention
  launch leaves the softmax-weighted values.  So the result array holds, entry by entry, the attention
  of the three plain projections of the input, with the final division done last.
-/

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Frame Cert.Attention

variable (m : (ℓ : Loc nD τ sig) → Buf (Elt Ideal) ℓ) (ρ : Dev nD → PrngReg)

/-- The input array, the joined weights and the joined biases on core `c`. -/
abbrev argX (c : Dev nD) : S4x4096x256.Idx → EReal := m ((c.tc : Thread nD τ).loc main_arg0)
def fusedW (c : Dev nD) : S256x192.Idx → EReal :=
  concatenate S256x192 1 [⟨S256x64, m ((c.tc : Thread nD τ).loc main_arg1)⟩, ⟨S256x64, m ((c.tc : Thread nD τ).loc main_arg3)⟩, ⟨S256x64, m ((c.tc : Thread nD τ).loc main_arg5)⟩]
    Facts₀.concatenates_S256x64_S256x64_S256x64_S256x192_d1
def fusedB (c : Dev nD) : S192.Idx → EReal :=
  concatenate S192 0 [⟨S64, m ((c.tc : Thread nD τ).loc main_arg2)⟩, ⟨S64, m ((c.tc : Thread nD τ).loc main_arg4)⟩, ⟨S64, m ((c.tc : Thread nD τ).loc main_arg6)⟩]
    Facts₀.concatenates_S64_S64_S64_S192_d0

/-- The result array as a function of the arguments. -/
def result (c : Dev nD) : S4x4096x64.Idx → EReal :=
  attnArr (projArr (argX m c) (fusedW m c) (fusedB m c) colQ) (projArr (argX m c) (fusedW m c) (fusedB m c) colK)
    (projArr (argX m c) (fusedW m c) (fusedB m c) colV)

/-! ## The buffers at the projection launch's entry -/

theorem V1_arg0 (c : Dev nD) : (V1 m ρ c main_arg0 : S4x4096x256.Idx → EReal) = argX m c :=
  StableHlo.after_of_forall_not_mem (b := Proc.devRef .tc main_arg0) _ _ (List.forall_iff_forall_mem.mp (by
          simp only [hostOps0, List.Forall, StableHlo.nary_writes, Finset.mem_singleton]
          repeat' apply And.intro
          all_goals exact StableHlo.devRef_ne_of_ne (by decide)))

theorem V1_v0 (c : Dev nD) : (V1 m ρ c main_v0 : S256x192.Idx → EReal) = fusedW m c := by
  dsimp only [V1, W1, W0, hostOps0]
  after_results
  rfl

theorem V1_v1 (c : Dev nD) : (V1 m ρ c main_v1 : S192.Idx → EReal) = fusedB m c := by
  dsimp only [V1, W1, W0, hostOps0]
  after_results
  rfl

/-! ## The chain through the two launches -/

theorem V2_q (c : Dev nD) : (V2 m ρ c main_v2_0 : S4x4096x64.Idx → EReal) = projArr (argX m c) (fusedW m c) (fusedB m c) colQ := by
  refine ((W2_arr m ρ c 3).trans (arr0_3 (V1 m ρ) c)).trans ?_
  rw [V1_arg0, V1_v0, V1_v1]
theorem V2_k (c : Dev nD) : (V2 m ρ c main_v2_1 : S4x4096x64.Idx → EReal) = projArr (argX m c) (fusedW m c) (fusedB m c) colK := by
  refine ((W2_arr m ρ c 4).trans (arr0_4 (V1 m ρ) c)).trans ?_
  rw [V1_arg0, V1_v0, V1_v1]
theorem V2_v (c : Dev nD) : (V2 m ρ c main_v2_2 : S4x4096x64.Idx → EReal) = projArr (argX m c) (fusedW m c) (fusedB m c) colV := by
  refine ((W2_arr m ρ c 5).trans (arr0_5 (V1 m ρ) c)).trans ?_
  rw [V1_arg0, V1_v0, V1_v1]

/-- What the attention launch's write-backs leave is `result`. -/
theorem final (c : Dev nD) : (dat1 (V2 m ρ) c).arrAt 3 cfg1.N = result m c := by
  refine (arr1_3 (V2 m ρ) c).trans ?_
  rw [V2_q, V2_k, V2_v]
  rfl

/-! ## The fused projections are the plain ones -/

theorem projQ_eq (c : Dev nD) (b : Fin 4) (s : Fin 4096) (e : Fin 64) :
    projAt (argX m c) (fusedW m c) (fusedB m c) colQ b s e
      = proj (m ((c.tc : Thread nD τ).loc main_arg0)) (m ((c.tc : Thread nD τ).loc main_arg1)) (m ((c.tc : Thread nD τ).loc main_arg2)) b s e := by
  unfold projAt proj fusedW fusedB
  refine congrArg₂ (· + ·) (Finset.sum_congr rfl fun d _ => congrArg (_ * ·) ?_) ?_
  · exact Concat.concatW_apply0 _ _ _ _ d e
  · exact Concat.concatB_apply0 _ _ _ _ e
theorem projK_eq (c : Dev nD) (b : Fin 4) (s : Fin 4096) (e : Fin 64) :
    projAt (argX m c) (fusedW m c) (fusedB m c) colK b s e
      = proj (m ((c.tc : Thread nD τ).loc main_arg0)) (m ((c.tc : Thread nD τ).loc main_arg3)) (m ((c.tc : Thread nD τ).loc main_arg4)) b s e := by
  unfold projAt proj fusedW fusedB
  refine congrArg₂ (· + ·) (Finset.sum_congr rfl fun d _ => congrArg (_ * ·) ?_) ?_
  · exact Concat.concatW_apply1 _ _ _ _ d e
  · exact Concat.concatB_apply1 _ _ _ _ e
theorem projV_eq (c : Dev nD) (b : Fin 4) (s : Fin 4096) (e : Fin 64) :
    projAt (argX m c) (fusedW m c) (fusedB m c) colV b s e
      = proj (m ((c.tc : Thread nD τ).loc main_arg0)) (m ((c.tc : Thread nD τ).loc main_arg5)) (m ((c.tc : Thread nD τ).loc main_arg6)) b s e := by
  unfold projAt proj fusedW fusedB
  refine congrArg₂ (· + ·) (Finset.sum_congr rfl fun d _ => congrArg (_ * ·) ?_) ?_
  · exact Concat.concatW_apply2 _ _ _ _ d e
  · exact Concat.concatB_apply2 _ _ _ _ e

/-- The result, entry by entry, in the shared specification's words. -/
theorem result_apply (c : Dev nD) (b : Fin 4) (s : Fin 4096) (u : Fin 64) :
    result m c (ix3 b s u)
      = outK (proj (m ((c.tc : Thread nD τ).loc main_arg0)) (m ((c.tc : Thread nD τ).loc main_arg1)) (m ((c.tc : Thread nD τ).loc main_arg2)))
          (proj (m ((c.tc : Thread nD τ).loc main_arg0)) (m ((c.tc : Thread nD τ).loc main_arg3)) (m ((c.tc : Thread nD τ).loc main_arg4)))
          (proj (m ((c.tc : Thread nD τ).loc main_arg0)) (m ((c.tc : Thread nD τ).loc main_arg5)) (m ((c.tc : Thread nD τ).loc main_arg6))) b s u := by
  unfold result
  rw [attnArr_apply]
  unfold attnAt outK dotqk
  refine congrArg₂ attnK (funext fun t => congrArg (· * eighth) (Finset.sum_congr rfl fun e _ => ?_)) (funext fun t => ?_)
  · rw [projArr_apply, projArr_apply, projQ_eq, projK_eq]
  · rw [projArr_apply, projV_eq]

/-- The run, read: the result array at `result`, every argument as launched. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m ρ c), (h c).2⟩) (run_main (F := Ideal) m ρ)

end Cert.KernelIdeal.Val

end
-- ==== Proof.RefProj.lean ====
import proofs.«138785_j2147483648333_2_alg».proof.Proof.Gen.ReferenceIdeal.Read
import proofs.«138785_j2147483648333_2_alg».proof.Proof.Spec

/-!
  The three projections of the plain program, entry by entry.

  Each one is a matrix product of the rows of the input with a weight matrix, plus a bias row that is
  first laid out as a [1, 1, 64] array and then repeated over batches and rows.  Read at batch `bb`,
  row `s`, unit `u` it is the sum over the 256 input features `d` of x(bb, s, d) · W(d, u), plus b(u):
  the function `proj` of the specification.
-/

noncomputable section

open scoped BigOperators

namespace Cert.ReferenceIdeal.RefValue

open Cert.ReferenceIdeal Cert.ReferenceIdeal.Read Cert.Attention Idealize.ShloMosaic Idealize.ShloMosaic.ValueIdx

variable (x0 : (⟨S4x4096x256, .f32⟩ : BufTy).Contents (Elt Ideal))
  (W : (⟨S256x64, .f32⟩ : BufTy).Contents (Elt Ideal)) (b : (⟨S64, .f32⟩ : BufTy).Contents (Elt Ideal))

/-- A matrix product over the input's features plus a repeated bias row, at one entry, is `proj`:
    the product reads the input at (bb, s, d) and the weights at (d, u); the bias is read at u. -/
theorem proj_of_reads (P : S4x4096x64.Idx → EReal) (bb : Fin 4) (s : Fin 4096) (u : Fin 64)
    (li : Fin 256 → S4x4096x256.Idx) (ri : Fin 256 → S256x64.Idx) (bi : S64.Idx)
    (hl : ∀ d, li d = ix3 bb s d) (hr : ∀ d, ri d = ix2 d u) (hb : bi = ix1 u)
    (hP : P (ix3 bb s u) = (∑ d : Fin 256, x0 (li d) * W (ri d)) + b bi) :
    P (ix3 bb s u) = proj x0 W b bb s u := by
  rw [hP, hb]
  unfold proj
  exact congrArg (· + b (ix1 u)) (Finset.sum_congr rfl fun d _ => by rw [hl d, hr d])

/-- The query projection of the plain program at (bb, s, u). -/
theorem v3_apply (bb : Fin 4) (s : Fin 4096) (u : Fin 64) :
    val_main_v3 (F := Ideal) x0 W b (ix3 bb s u) = proj x0 W b bb s u := by
  refine proj_of_reads x0 W b _ bb s u (lidx_main_v0 (ix3 bb s u)) (ridx_main_v0 (ix3 bb s u))
    (idx_main_v1 (idx_main_v2 (ix3 bb s u))) (fun d => ?_) (fun d => ?_) ?_ ?_
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)
  · rw [val_main_v3_apply, val_main_v0_apply, val_main_v2_apply, val_main_v1_apply, Ideal.addf_def]

/-- The key projection of the plain program at (bb, s, u). -/
theorem v7_apply (bb : Fin 4) (s : Fin 4096) (u : Fin 64) :
    val_main_v7 (F := Ideal) x0 W b (ix3 bb s u) = proj x0 W b bb s u := by
  refine proj_of_reads x0 W b _ bb s u (lidx_main_v4 (ix3 bb s u)) (ridx_main_v4 (ix3 bb s u))
    (idx_main_v5 (idx_main_v6 (ix3 bb s u))) (fun d => ?_) (fun d => ?_) ?_ ?_
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)
  · rw [val_main_v7_apply, val_main_v4_apply, val_main_v6_apply, val_main_v5_apply, Ideal.addf_def]

/-- The value projection of the plain program at (bb, s, u). -/
theorem v11_apply (bb : Fin 4) (s : Fin 4096) (u : Fin 64) :
    val_main_v11 (F := Ideal) x0 W b (ix3 bb s u) = proj x0 W b bb s u := by
  refine proj_of_reads x0 W b _ bb s u (lidx_main_v8 (ix3 bb s u)) (ridx_main_v8 (ix3 bb s u))
    (idx_main_v9 (idx_main_v10 (ix3 bb s u))) (fun d => ?_) (fun d => ?_) ?_ ?_
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)
  · rw [val_main_v11_apply, val_main_v8_apply, val_main_v10_apply, val_main_v9_apply, Ideal.addf_def]

end Cert.ReferenceIdeal.RefValue

end
-- ==== Proof.RefScores.lean ====
import proofs.«138785_j2147483648333_2_alg».proof.Proof.Gen.ReferenceIdeal.Read
import proofs.«138785_j2147483648333_2_alg».proof.Proof.Spec
import proofs.«138785_j2147483648333_2_alg».proof.Proof.RefProj
/-!
  The scaled scores of the plain program, entry by entry.

  The score of query row `s` against key row `t` in batch `bb` is the product of the query and key
  projections contracted over their 64 units, divided by the constant eight (which reaches every entry
  as a repeated scalar).
-/

noncomputable section

open scoped BigOperators

namespace Cert.ReferenceIdeal.RefValue

open Cert.ReferenceIdeal Cert.ReferenceIdeal.Read Cert.Attention Idealize.ShloMosaic Idealize.ShloMosaic.ValueIdx

variable (x0 : (⟨S4x4096x256, .f32⟩ : BufTy).Contents (Elt Ideal))
  (x1 : (⟨S256x64, .f32⟩ : BufTy).Contents (Elt Ideal)) (x2 : (⟨S64, .f32⟩ : BufTy).Contents (Elt Ideal))
  (x3 : (⟨S256x64, .f32⟩ : BufTy).Contents (Elt Ideal)) (x4 : (⟨S64, .f32⟩ : BufTy).Contents (Elt Ideal))

/-- The unscaled score at (bb, s, t): the sum over the units of q(bb, s, u) · k(bb, t, u). -/
theorem v12_apply (bb : Fin 4) (s t : Fin 4096) :
    val_main_v12 (F := Ideal) x0 x1 x2 x3 x4 (ix3 bb s t)
      = dotqk (proj x0 x1 x2) (proj x0 x3 x4) bb s t := by
  rw [val_main_v12_apply]
  unfold dotqk
  refine Finset.sum_congr rfl fun k _ => ?_
  have el : lidx_main_v12 (ix3 bb s t) k = ix3 bb s k :=
    funext fun a => Fin.ext (by match a with | ⟨0, _⟩ => rfl | ⟨1, _⟩ => rfl | ⟨2, _⟩ => rfl)
  have er : ridx_main_v12 (ix3 bb s t) k = ix3 bb t k :=
    funext fun a => Fin.ext (by match a with | ⟨0, _⟩ => rfl | ⟨1, _⟩ => rfl | ⟨2, _⟩ => rfl)
  rw [el, er, v3_apply, v7_apply]

/-- The scaled score at (bb, s, t): the unscaled score divided by eight. -/
theorem v14_apply (bb : Fin 4) (s t : Fin 4096) :
    val_main_v14 (F := Ideal) x0 x1 x2 x3 x4 (ix3 bb s t)
      = Ideal.div (dotqk (proj x0 x1 x2) (proj x0 x3 x4) bb s t) eight := by
  rw [val_main_v14_apply, v12_apply, val_main_v13_apply, val_main_cst_apply, Ideal.hostDivf_def,
    Ideal.ofBits_def]

end Cert.ReferenceIdeal.RefValue

end
-- ==== Proof.RefSoftmax.lean ====
import proofs.«138785_j2147483648333_2_alg».proof.Proof.Gen.ReferenceIdeal.Read
import proofs.«138785_j2147483648333_2_alg».proof.Proof.Spec

/-!
  The softmax stages of the plain program, entry by entry, over an arbitrary score row.

  Fix a batch `bb` and a query row `s`, and call `sc t` the scaled score at (bb, s, t).  The plain
  program takes the maximum of the row (a fold of `max` from minus infinity over the last axis of the
  [4, 4096, 4096] score array), takes the larger of that and minus infinity once more (which changes
  nothing: a fold that starts from a value is at least that value), subtracts it from every score,
  exponentiates, sums the row from the initial value zero, and divides every exponential by the
  row's total.  The intermediate [4, 4096] results reach the [4, 4096, 4096] entries through a
  [4, 4096, 1] layout whose last coordinate is always zero.
-/

noncomputable section

open scoped BigOperators

namespace Cert.ReferenceIdeal.RefValue

open Cert.ReferenceIdeal Cert.ReferenceIdeal.Read Cert.Attention Idealize.ShloMosaic Idealize.ShloMosaic.ValueIdx

/-- Over a rank-3 array reduced along its last axis, the source index over (p, q) with last
    coordinate `k` inserted is the index (p, q, k). -/
theorem lift_ix2 {A B C : Nat} (h : (⟨3, ![A, B, C]⟩ : Shape).Reduces [2] ⟨2, ![A, B]⟩) (p : Fin A) (q : Fin B)
    (k : Fin C) : h.lift (ix2 p q) k = ix3 p q k := by
  funext a
  match a with
  | ⟨0, _⟩ => rfl
  | ⟨1, _⟩ => rfl
  | ⟨2, _⟩ => rfl

/-- The host's reduction with the maximum as its body along the last axis of a rank-3 array of
    extended reals, read at (p, q): the fold of `max` from the initial value over the last coordinates
    `k` of the entries (p, q, k). -/
theorem hostReduce_maximumf_last {A B C : Nat} {u : Shape} (x : (⟨3, ![A, B, C]⟩ : Shape).Idx → EReal)
    (init : u.Idx → EReal) (h' : (⟨3, ![A, B, C]⟩ : Shape).ReducesTo [2] ⟨2, ![A, B]⟩)
    (h : (⟨3, ![A, B, C]⟩ : Shape).Reduces [2] ⟨2, ![A, B]⟩) (hu : 0 < u.numel) (p : Fin A) (q : Fin B) :
    Host.reduce (FloatOps.maximumf (F := Ideal) (φ := .f32)) x init h' hu (ix2 p q)
      = (Finset.univ : Finset (Fin C)).fold max (init (Shape.Idx.first hu)) (fun k => x (ix3 p q k)) := by
  refine (Host.reduce_eq_fold_single _ x init h' h hu (ix2 p q)).trans ?_
  have e : (x ∘ h.lift (ix2 p q)) = fun k : Fin C => x (ix3 p q k) :=
    funext fun k => congrArg x (lift_ix2 h p q k)
  rw [e]
  rfl

/-- A fold of `max` that starts from `b` is at least `b`, so taking the larger of `b` and the fold
    gives the fold back. -/
theorem max_fold_max_self {ι : Type*} (s : Finset ι) (b : EReal) (f : ι → EReal) :
    max b (s.fold max b f) = s.fold max b f :=
  max_eq_right ((Finset.le_fold_max b).mpr (Or.inl le_rfl))

variable (x0 : (⟨S4x4096x256, .f32⟩ : BufTy).Contents (Elt Ideal))
  (x1 : (⟨S256x64, .f32⟩ : BufTy).Contents (Elt Ideal)) (x2 : (⟨S64, .f32⟩ : BufTy).Contents (Elt Ideal))
  (x3 : (⟨S256x64, .f32⟩ : BufTy).Contents (Elt Ideal)) (x4 : (⟨S64, .f32⟩ : BufTy).Contents (Elt Ideal))
  (bb : Fin 4) (s : Fin 4096) (sc : Fin 4096 → EReal)
  (hsc : ∀ t, val_main_v14 (F := Ideal) x0 x1 x2 x3 x4 (ix3 bb s t) = sc t)

include hsc

/-- The row's maximum as the plain program first takes it: the fold of `max` from minus infinity. -/
theorem v15_apply : val_main_v15 (F := Ideal) x0 x1 x2 x3 x4 (ix2 bb s) = rowMax sc := by
  unfold val_main_v15
  refine (hostReduce_maximumf_last (val_main_v14 (F := Ideal) x0 x1 x2 x3 x4) (val_main_cst_0 (F := Ideal)) _
    (by decide) _ bb s).trans ?_
  have e : (fun t => val_main_v14 (F := Ideal) x0 x1 x2 x3 x4 (ix3 bb s t)) = sc := funext hsc
  rw [e]
  rfl

/-- Taking the larger of minus infinity and the row's maximum leaves the row's maximum. -/
theorem v17_apply : val_main_v17 (F := Ideal) x0 x1 x2 x3 x4 (ix2 bb s) = rowMax sc := by
  rw [val_main_v17_apply, val_main_v16_apply, val_main_cst_1_apply, v15_apply x0 x1 x2 x3 x4 bb s sc hsc,
    Ideal.maximumf_def, Ideal.ofBits_def]
  exact max_fold_max_self _ _ _

/-- The shifted exponential at (bb, s, t). -/
theorem v21_apply (t : Fin 4096) : val_main_v21 (F := Ideal) x0 x1 x2 x3 x4 (ix3 bb s t) = rowExp sc t := by
  have ei : idx_main_v18 (idx_main_v19 (ix3 bb s t)) = ix2 bb s :=
    funext fun a => Fin.ext (by match a with | ⟨0, _⟩ => rfl | ⟨1, _⟩ => rfl)
  rw [val_main_v21_apply, val_main_v20_apply, val_main_v19_apply, val_main_v18_apply, ei,
    v17_apply x0 x1 x2 x3 x4 bb s sc hsc, hsc t, Ideal.hostUnary_exp_def, Ideal.subf_def]
  rfl

/-- The row's total at (bb, s): the sum, from the initial value zero, of the shifted exponentials. -/
theorem v22_apply : val_main_v22 (F := Ideal) x0 x1 x2 x3 x4 (ix2 bb s) = rowTotal sc := by
  rw [val_main_v22_apply, val_main_cst_2_apply, Ideal.ofBits_def, Ideal.ofBits_zero_f32, zero_add]
  unfold rowTotal
  refine Finset.sum_congr rfl fun k _ => ?_
  have ei : idx_main_v22 (ix2 bb s) k = ix3 bb s k :=
    funext fun a => Fin.ext (by match a with | ⟨0, _⟩ => rfl | ⟨1, _⟩ => rfl | ⟨2, _⟩ => rfl)
  rw [ei, v21_apply x0 x1 x2 x3 x4 bb s sc hsc k]

/-- The normalised weight at (bb, s, t): the shifted exponential divided by the row's total. -/
theorem v25_apply (t : Fin 4096) :
    val_main_v25 (F := Ideal) x0 x1 x2 x3 x4 (ix3 bb s t) = Ideal.div (rowExp sc t) (rowTotal sc) := by
  have ei : idx_main_v23 (idx_main_v24 (ix3 bb s t)) = ix2 bb s :=
    funext fun a => Fin.ext (by match a with | ⟨0, _⟩ => rfl | ⟨1, _⟩ => rfl)
  rw [val_main_v25_apply, val_main_v24_apply, val_main_v23_apply, ei, v22_apply x0 x1 x2 x3 x4 bb s sc hsc,
    v21_apply x0 x1 x2 x3 x4 bb s sc hsc t, Ideal.hostDivf_def]

end Cert.ReferenceIdeal.RefValue

end
-- ==== Proof.RefIsSpec.lean ====
import proofs.«138785_j2147483648333_2_alg».proof.Proof.Gen.ReferenceIdeal.Read
import proofs.«138785_j2147483648333_2_alg».proof.Proof.Spec
import proofs.«138785_j2147483648333_2_alg».proof.Proof.RefProj
import proofs.«138785_j2147483648333_2_alg».proof.Proof.RefScores
import proofs.«138785_j2147483648333_2_alg».proof.Proof.RefSoftmax
/-!
  The plain program computes the specification's attention, entry by entry.

  Its last step contracts the normalised weights of query row `s` with the value projection over the
  key rows `t`: at (bb, s, u) the sum over `t` of weight(bb, s, t) · v(bb, t, u).  With the weights read
  as the shifted exponentials of the scaled scores divided by the row's total, and the three
  projections read as `proj`, this is `outR`: the arrangement that normalises each weight before the sum.
-/

noncomputable section

open scoped BigOperators

namespace Cert.ReferenceIdeal.RefValue

open Cert.ReferenceIdeal Cert.ReferenceIdeal.Read Cert.Attention Idealize.ShloMosaic Idealize.ShloMosaic.ValueIdx

/-- The plain program's result at batch `bb`, query row `s`, unit `u` is the specification's `outR`
    of the three projections. -/
theorem ref_apply (x0 : (⟨S4x4096x256, .f32⟩ : BufTy).Contents (Elt Ideal))
    (x1 : (⟨S256x64, .f32⟩ : BufTy).Contents (Elt Ideal)) (x2 : (⟨S64, .f32⟩ : BufTy).Contents (Elt Ideal))
    (x3 : (⟨S256x64, .f32⟩ : BufTy).Contents (Elt Ideal)) (x4 : (⟨S64, .f32⟩ : BufTy).Contents (Elt Ideal))
    (x5 : (⟨S256x64, .f32⟩ : BufTy).Contents (Elt Ideal)) (x6 : (⟨S64, .f32⟩ : BufTy).Contents (Elt Ideal))
    (bb : Fin 4) (s : Fin 4096) (u : Fin 64) :
    val_main_v26 (F := Ideal) x0 x1 x2 x3 x4 x5 x6 (ix3 bb s u)
      = outR (proj x0 x1 x2) (proj x0 x3 x4) (proj x0 x5 x6) bb s u := by
  rw [val_main_v26_apply]
  unfold outR attnR
  refine Finset.sum_congr rfl fun k _ => ?_
  have el : lidx_main_v26 (ix3 bb s u) k = ix3 bb s k :=
    funext fun a => Fin.ext (by match a with | ⟨0, _⟩ => rfl | ⟨1, _⟩ => rfl | ⟨2, _⟩ => rfl)
  have er : ridx_main_v26 (ix3 bb s u) k = ix3 bb k u :=
    funext fun a => Fin.ext (by match a with | ⟨0, _⟩ => rfl | ⟨1, _⟩ => rfl | ⟨2, _⟩ => rfl)
  rw [el, er, v11_apply,
    v25_apply x0 x1 x2 x3 x4 bb s (fun t => Ideal.div (dotqk (proj x0 x1 x2) (proj x0 x3 x4) bb s t) eight)
      (fun t => v14_apply x0 x1 x2 x3 x4 bb s t) k]

end Cert.ReferenceIdeal.RefValue

end
-- ==== Proof.LibSoftmaxUnit.lean ====
/-
  Extended-real arithmetic for a row softmax that is averaged over the very axis it normalizes.

  At the exact extended reals a softmax row `e_k / Σ_j e_j` sums to one as soon as every `e_k` is a positive
  real, whatever the scores were; its mean over `n` entries is then `1/n`, a constant row; and the softmax of a
  constant row of `n` entries is `1/n` again. The lemmas below are the pieces of that argument, stated for the
  operations as they read at the exact instance: `Ideal.div`, `Ideal.exp`, `Ideal.sqrt`, `max`, finite sums with an
  initial value, and a maximum folded from `⊥`.
-/
import Idealize.ShloMosaic.PureOps.Ideal
import Idealize.ShloMosaic.PureOps.Ideal.Laws

noncomputable section

namespace Idealize.ShloMosaic.SoftmaxUnit

open Idealize.ShloMosaic

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsReal.coe (r : ℝ) : IsReal (r : EReal) := ⟨r, rfl⟩

theorem IsPos.isReal {x : EReal} (h : IsPos x) : IsReal x := by
  obtain ⟨r, -, rfl⟩ := h; exact ⟨r, rfl⟩

theorem IsReal.zero : IsReal 0 := ⟨0, by norm_cast⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type*} (s : Finset ι) (g : ι → EReal) (h : ∀ k, IsReal (g k)) : IsReal (∑ k ∈ s, g k) := by
  choose f hf using h
  exact ⟨∑ k ∈ s, f k, by rw [← coe_sum]; exact Finset.sum_congr rfl fun k _ => hf k⟩

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem IsReal.div_pos {x y : EReal} (hx : IsReal x) (hy : IsPos y) : IsReal (Ideal.div x y) := by
  obtain ⟨a, rfl⟩ := hx; obtain ⟨b, hb, rfl⟩ := hy
  exact ⟨a / b, div_coe_coe a b hb.ne'⟩

/-- A Euclidean norm floored at a positive real: `max (√s) e` is a positive real for every real `s` — below zero the
    root is the junk `⊥` and the floor is the value. -/
theorem IsPos.max_sqrt {s e : EReal} (hs : IsReal s) (he : IsPos e) : IsPos (max (Ideal.sqrt s) e) := by
  obtain ⟨r, rfl⟩ := hs; obtain ⟨q, hq, rfl⟩ := he
  rw [Ideal.sqrt_coe]
  split_ifs with h
  · exact ⟨q, hq, max_eq_right bot_le⟩
  · exact ⟨max (Real.sqrt r) q, lt_max_of_lt_right hq, EReal.coe_strictMono.monotone.map_max.symm⟩

/-- The exponential of a real number is a positive real. -/
theorem IsPos.exp {x : EReal} (hx : IsReal x) : IsPos (Ideal.exp x) := by
  obtain ⟨r, rfl⟩ := hx; exact ⟨Real.exp r, Real.exp_pos r, Ideal.exp_coe r⟩

/-- A maximum folded from `⊥` is the supremum. -/
theorem fold_max_bot {ι : Type*} (s : Finset ι) (g : ι → EReal) : s.fold max ⊥ g = s.sup g := rfl

/-- The maximum, folded from `⊥`, of a nonempty family of reals is a real. -/
theorem IsReal.fold_max {ι : Type*} (s : Finset ι) (hs : s.Nonempty) (g : ι → EReal) (h : ∀ k, IsReal (g k)) :
    IsReal (s.fold max ⊥ g) := by
  rw [fold_max_bot]
  obtain ⟨i, -, e⟩ := Finset.exists_mem_eq_sup s hs g
  rw [e]; exact h i

/-- The maximum, folded from `⊥`, of a nonempty constant family is the constant. -/
theorem fold_max_const {ι : Type*} (s : Finset ι) (hs : s.Nonempty) (c : EReal) : s.fold max ⊥ (fun _ => c) = c := by
  rw [fold_max_bot]; exact Finset.sup_const hs c

/-- A ROW OF A SOFTMAX SUMS TO ONE: positive reals `p k`, each divided by their sum, add up to `1` (both sums taken from
    the initial value `0`, as a host reduction states them). -/
theorem sum_div_total {ι : Type*} [Fintype ι] [Nonempty ι] (p : ι → EReal) (hp : ∀ k, IsPos (p k)) :
    (0 : EReal) + ∑ k, Ideal.div (p k) ((0 : EReal) + ∑ j, p j) = 1 := by
  choose f hf0 hf using hp
  have hS : 0 < ∑ j, f j := Finset.sum_pos (fun j _ => hf0 j) Finset.univ_nonempty
  have e1 : (0 : EReal) + ∑ j, p j = ((∑ j, f j : ℝ) : EReal) := by
    rw [zero_add, ← coe_sum]; exact Finset.sum_congr rfl fun k _ => hf k
  rw [e1, zero_add]
  have e2 : ∀ k, Ideal.div (p k) ((∑ j, f j : ℝ) : EReal) = ((f k / ∑ j, f j : ℝ) : EReal) := fun k => by
    rw [hf k]; exact div_coe_coe _ _ hS.ne'
  rw [Finset.sum_congr rfl fun k _ => e2 k, coe_sum, ← Finset.sum_div, div_self hS.ne']
  norm_cast

/-- THE SOFTMAX OF A CONSTANT ROW is uniform: with every score the real `c` and the row's maximum `c` too, each entry
    `exp (c - c)` divided by the sum of the `n` of them is `1/n`. -/
theorem softmax_const (n : ℕ) (hn : 0 < n) (c : ℝ) :
    Ideal.div (Ideal.exp ((c : EReal) - (c : EReal))) ((0 : EReal) + ∑ _k : Fin n, Ideal.exp ((c : EReal) - (c : EReal)))
      = ((1 / (n : ℝ) : ℝ) : EReal) := by
  have e : Ideal.exp ((c : EReal) - (c : EReal)) = ((1 : ℝ) : EReal) := by
    rw [← EReal.coe_sub, sub_self, Ideal.exp_coe, Real.exp_zero]
  rw [e, zero_add, coe_sum, Finset.sum_const, Finset.card_univ, Fintype.card_fin, nsmul_eq_mul, mul_one]
  exact div_coe_coe 1 (n : ℝ) (by positivity)

end Idealize.ShloMosaic.SoftmaxUnit

end
-- ==== Proof.SoftmaxLaw.lean ====
import proofs.«138785_j2147483648333_2_alg».proof.Proof.Spec
import proofs.«138785_j2147483648333_2_alg».proof.Proof.LibSoftmaxUnit

/-!
  The two arrangements of softmax attention agree on real inputs.

  With every score a real number the two ways of scaling agree (multiplying by the real 1/8 is dividing
  by the real 8), the row maximum is real, every shifted exponential is a positive real, and so is their
  total L.  Then (Σ e_t v_t) / L = Σ (e_t / L) v_t is the distributivity of division over a finite sum
  in ℝ.
-/

noncomputable section

open scoped BigOperators

namespace Cert.Attention

open Idealize.ShloMosaic Idealize.ShloMosaic.SoftmaxUnit

/-! ### The three constants -/

/-- The pattern of -∞ denotes ⊥. -/
theorem negInf_eq : negInf = ⊥ := by
  simp [negInf, Ideal.ofBits, Ideal.ieee]

/-- The pattern 0x3E000000 denotes the real 1/8. -/
theorem eighth_eq : eighth = ((1 / 8 : ℝ) : EReal) := by
  simp [eighth, Ideal.ofBits, Ideal.ieee, -EReal.coe_mul]; norm_num

/-- The pattern 0x41000000 denotes the real 8. -/
theorem eight_eq : eight = ((8 : ℝ) : EReal) := by
  simp [eight, Ideal.ofBits, Ideal.ieee, -EReal.coe_mul]; norm_num

/-- Dividing by eight is multiplying by one eighth, for every extended real. -/
theorem div_eight (x : EReal) : Ideal.div x eight = x * eighth := by
  rw [eight_eq, eighth_eq, Ideal.div_coe (by norm_num : (8 : ℝ) ≠ 0)]

theorem eighth_isReal : IsReal eighth := ⟨1 / 8, eighth_eq⟩

/-! ### The row law over an abstract finite nonempty index type -/

section Row

variable {ι : Type*} [Fintype ι] [Nonempty ι]

/-- The total of positive reals is a positive real. -/
theorem isPos_sum (e : ι → EReal) (he : ∀ t, IsPos (e t)) : IsPos (∑ t, e t) := by
  choose f hf0 hf using he
  refine ⟨∑ t, f t, Finset.sum_pos (fun t _ => hf0 t) Finset.univ_nonempty, ?_⟩
  rw [← coe_sum]; exact Finset.sum_congr rfl fun t _ => hf t

/-- Division by the total distributes over the weighted sum: positive real weights `e`, real values `v`. -/
theorem div_sum_eq_sum_div (e v : ι → EReal) (he : ∀ t, IsPos (e t)) (hv : ∀ t, IsReal (v t)) :
    Ideal.div (∑ t, e t * v t) (∑ t, e t) = ∑ t, Ideal.div (e t) (∑ t, e t) * v t := by
  choose f hf0 hf using he
  choose g hg using hv
  have hL : 0 < ∑ t, f t := Finset.sum_pos (fun t _ => hf0 t) Finset.univ_nonempty
  have eL : ∑ t, e t = ((∑ t, f t : ℝ) : EReal) := by
    rw [← coe_sum]; exact Finset.sum_congr rfl fun t _ => hf t
  have eN : ∑ t, e t * v t = ((∑ t, f t * g t : ℝ) : EReal) := by
    rw [← coe_sum]; exact Finset.sum_congr rfl fun t _ => by rw [hf t, hg t, EReal.coe_mul]
  have eT : ∀ t, Ideal.div (e t) ((∑ t, f t : ℝ) : EReal) * v t = ((f t / (∑ t, f t) * g t : ℝ) : EReal) := fun t => by
    rw [hf t, hg t, div_coe_coe _ _ hL.ne', EReal.coe_mul]
  rw [eN, eL, div_coe_coe _ _ hL.ne', Finset.sum_congr rfl fun t _ => eT t, coe_sum, Finset.sum_div]
  exact congrArg _ (Finset.sum_congr rfl fun t _ => (div_mul_eq_mul_div _ _ _).symm)

end Row

/-! ### The row at its literal length -/

theorem rowMax_isReal (sc : Fin 4096 → EReal) (hsc : ∀ t, IsReal (sc t)) : IsReal (rowMax sc) := by
  rw [rowMax, negInf_eq]
  exact IsReal.fold_max Finset.univ Finset.univ_nonempty sc hsc

theorem rowExp_isPos (sc : Fin 4096 → EReal) (hsc : ∀ t, IsReal (sc t)) (t : Fin 4096) : IsPos (rowExp sc t) :=
  IsPos.exp (IsReal.sub (hsc t) (rowMax_isReal sc hsc))

theorem rowTotal_isPos (sc : Fin 4096 → EReal) (hsc : ∀ t, IsReal (sc t)) : IsPos (rowTotal sc) :=
  isPos_sum _ (rowExp_isPos sc hsc)

/-- On a real score row and real values, the quotient of the weighted sum is the sum weighted by the quotients. -/
theorem attnK_eq_attnR (sc vcol : Fin 4096 → EReal) (hsc : ∀ t, IsReal (sc t)) (hv : ∀ t, IsReal (vcol t)) :
    attnK sc vcol = attnR sc vcol :=
  div_sum_eq_sum_div (rowExp sc) vcol (rowExp_isPos sc hsc) hv

/-! ### The projections and the scores are real -/

theorem proj_isReal (x : (⟨3, ![4, 4096, 256]⟩ : Shape).Idx → EReal) (W : (⟨2, ![256, 64]⟩ : Shape).Idx → EReal)
    (b : (⟨1, ![64]⟩ : Shape).Idx → EReal) (hx : ∀ i, IsReal (x i)) (hW : ∀ i, IsReal (W i)) (hb : ∀ i, IsReal (b i))
    (bb : Fin 4) (s : Fin 4096) (u : Fin 64) : IsReal (proj x W b bb s u) :=
  IsReal.add (IsReal.sum _ _ fun d => IsReal.mul (hx _) (hW _)) (hb _)

theorem dotqk_isReal (q k : Fin 4 → Fin 4096 → Fin 64 → EReal) (hq : ∀ a s u, IsReal (q a s u))
    (hk : ∀ a s u, IsReal (k a s u)) (bb : Fin 4) (s t : Fin 4096) : IsReal (dotqk q k bb s t) :=
  IsReal.sum _ _ fun u => IsReal.mul (hq bb s u) (hk bb t u)

/-- The two arrangements of the attention output agree on real q, k, v. -/
theorem outK_eq_outR (q k v : Fin 4 → Fin 4096 → Fin 64 → EReal) (hq : ∀ a s u, IsReal (q a s u))
    (hk : ∀ a s u, IsReal (k a s u)) (hv : ∀ a s u, IsReal (v a s u)) (bb : Fin 4) (s : Fin 4096) (u : Fin 64) :
    outK q k v bb s u = outR q k v bb s u := by
  have hsc : (fun t => Ideal.div (dotqk q k bb s t) eight) = fun t => dotqk q k bb s t * eighth :=
    funext fun t => div_eight _
  rw [outK, outR, hsc]
  exact attnK_eq_attnR _ _ (fun t => IsReal.mul (dotqk_isReal q k hq hk bb s t) eighth_isReal) (fun t => hv bb t u)

end Cert.Attention

end
-- ==== Proof.Finite.lean ====
import proofs.«138785_j2147483648333_2_alg».proof.Pre_finite_inputs
import proofs.«138785_j2147483648333_2_alg».proof.Proof.Gen.Pre_finite_inputs
import proofs.«138785_j2147483648333_2_alg».proof.Proof.LibSoftmaxUnit
import Idealize.ShloMosaic.Lib.ReduceAll
import Idealize.ShloMosaic.Lib.ValueIdx

/-!
  From the finiteness predicate to "every entry is a real number".

  The predicate is a conjunction of seven tests, one per argument array, each of the form
  "all entries satisfy |a| < +∞".  At the extended reals |a| is max a (-a), and the pattern
  0x7F800000 denotes ⊤; max a (-a) < ⊤ rules out a = ⊤ and a = ⊥, so a is the coercion of a real.
-/

noncomputable section

namespace Cert.Finite

open Idealize.ShloMosaic Idealize.ShloMosaic.SoftmaxUnit Cert.Pre_finite_inputs

/-- The pattern of +∞ denotes ⊤. -/
theorem ofBits_inf : Ideal.ofBits .f32 0x7F800000#32 = ⊤ := by
  simp [Ideal.ofBits, Ideal.ieee]

/-- An extended real whose absolute value compares below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

/-- One conjunct of the predicate: if the test "all |a| < +∞" over the array `a` came out true,
    every entry of `a` is a real number. -/
theorem all_lt_inf {s : Shape} {axes : List (Fin s.rank)} (a : FVec Ideal s .f32)
    (dims : Fin S_.rank → Fin s.rank) (bc : S_.BroadcastsInDim s dims) (h : s.ReducesTo axes S_) (hu : 0 < S_.numel)
    (e : Host.reduce IntOp.andi
          (cmpf .olt (Host.absf a) (broadcastInDim s dims bc (constant (F := Ideal) S_ .f32 0x7F800000#32)))
          (constantI S_ 1 1#1) h hu ValueIdx.ix0 = 1#1) (i : s.Idx) : IsReal (a i) := by
  have hi := Host.reduce_andi_all _ _ h hu ValueIdx.ix0 e i
  exact isReal_of_abs_lt_inf (a i) hi

/-- The predicate, true, says every entry of each of the seven arrays is a real number. -/
theorem all_real [Cert.Pre_finite_inputs.Facts]
    (a0 : FVec Ideal S4x4096x256 .f32) (a1 : FVec Ideal S256x64 .f32) (a2 : FVec Ideal S64 .f32)
    (a3 : FVec Ideal S256x64 .f32) (a4 : FVec Ideal S64 .f32) (a5 : FVec Ideal S256x64 .f32) (a6 : FVec Ideal S64 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ValueIdx.ix0
  dsimp only [fn, fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_lt_inf a0 _ _ _ _ e0, all_lt_inf a1 _ _ _ _ e1, all_lt_inf a2 _ _ _ _ e2, all_lt_inf a3 _ _ _ _ e3,
    all_lt_inf a4 _ _ _ _ e4, all_lt_inf a5 _ _ _ _ e5, all_lt_inf a6 _ _ _ _ e6⟩

end Cert.Finite

end
-- ==== Proof.lean ====
/-
  Scaled dot-product attention with fused projections against its plain form, over the extended reals.

  The kernel program joins the three projection weights into one matrix and the three biases into one
  vector, computes all three projections in one product per row tile, and then, per batch and query
  tile, the scores against every key row scaled by the factor 1/8, a softmax along each score row and
  the weighted sum of the value rows, dividing the weighted sum by the row's total at the end.  The
  reference computes the three projections separately, divides the scores by 8, normalises the softmax
  weights first and then takes the weighted sum.

  Index by index the two results are the same extended real when every input is finite: the fused
  columns are the separate weights' columns; multiplying by 1/8 is dividing by 8; and, all projected
  entries being real, each score row is real, its maximum is real, the shifted exponentials are positive
  reals with a positive real total L, so (Σ e_t v_t) / L = Σ (e_t / L) v_t by distributivity in ℝ.
  Finiteness is used exactly there (at infinities the division does not distribute over the sum).

  The three frame claims: each program runs to the end, faults nowhere and leaves its arguments
  unchanged — for the two kernel programs from the run of their host stretch and two launches, for
  the reference from its run.  No operation of the module was rewritten for the ideal reading, so the
  preservation claim is the trivial proposition.
-/
import proofs.«138785_j2147483648333_2_alg».proof.Defs
import proofs.«138785_j2147483648333_2_alg».proof.Proof.Gen.Kernel
import proofs.«138785_j2147483648333_2_alg».proof.Proof.Gen.Kernel.Skeleton
import proofs.«138785_j2147483648333_2_alg».proof.Proof.Gen.Kernel.Launch
import proofs.«138785_j2147483648333_2_alg».proof.Proof.Gen.Kernel.Regions
import proofs.«138785_j2147483648333_2_alg».proof.Proof.Gen.Kernel.Points
import proofs.«138785_j2147483648333_2_alg».proof.Proof.Gen.KernelIdeal
import proofs.«138785_j2147483648333_2_alg».proof.Proof.Gen.KernelIdeal.Skeleton
import proofs.«138785_j2147483648333_2_alg».proof.Proof.Gen.KernelIdeal.Launch
import proofs.«138785_j2147483648333_2_alg».proof.Proof.Gen.KernelIdeal.Regions
import proofs.«138785_j2147483648333_2_alg».proof.Proof.Gen.KernelIdeal.Points
import proofs.«138785_j2147483648333_2_alg».proof.Proof.Gen.ReferenceIdeal
import proofs.«138785_j2147483648333_2_alg».proof.Proof.Gen.ReferenceIdeal.Run
import proofs.«138785_j2147483648333_2_alg».proof.Proof.Gen.ReferenceIdeal.Read
import proofs.«138785_j2147483648333_2_alg».proof.Proof.Gen.Pre_finite_inputs
import proofs.«138785_j2147483648333_2_alg».proof.Proof.KRun
import proofs.«138785_j2147483648333_2_alg».proof.Proof.KIRun
import proofs.«138785_j2147483648333_2_alg».proof.Proof.KIValue
import proofs.«138785_j2147483648333_2_alg».proof.Proof.RefIsSpec
import proofs.«138785_j2147483648333_2_alg».proof.Proof.SoftmaxLaw
import proofs.«138785_j2147483648333_2_alg».proof.Proof.Finite
import Idealize.ShloMosaic.Adequacy
import Idealize.ShloMosaic.Init

noncomputable section

namespace Cert.Proof

open Idealize.ShloMosaic Idealize.SL.Sem Idealize.ShloMosaic.ValueIdx Idealize.ShloMosaic.SoftmaxUnit Cert.Attention

/-- Under finite inputs the kernel program's result function is the reference's last stage of the same
    arguments: entry by entry the final-division form and the normalise-first form of the attention of
    the three real-valued projections. -/
theorem bridge (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = (fun _ => 1#1)) :
    Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Val.result m c := by
  obtain ⟨h0, h1, h2, h3, h4, h5, h6⟩ := Cert.Finite.all_real _ _ _ _ _ _ _ hpre
  funext i
  obtain ⟨b, s, u, rfl⟩ : ∃ (b : Fin 4) (s : Fin 4096) (u : Fin 64), i = (ix3 b s u : Cert.KernelIdeal.S4x4096x64.Idx) :=
    ⟨i 0, i 1, i 2, eq_ix3 (n0 := 4) (n1 := 4096) (n2 := 64) i⟩
  refine (Cert.ReferenceIdeal.RefValue.ref_apply _ _ _ _ _ _ _ b s u).trans ?_
  refine ((outK_eq_outR _ _ _ (fun a s u => proj_isReal _ _ _ h0 h1 h2 a s u) (fun a s u => proj_isReal _ _ _ h0 h3 h4 a s u)
    (fun a s u => proj_isReal _ _ _ h0 h5 h6 a s u) b s u).symm).trans ?_
  exact (Cert.KernelIdeal.Val.result_apply m c b s u).symm

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run; the kernel program's result array ends at its function of the arguments,
    the reference's at its last stage of arguments that agree, and the two are one function (`bridge`). -/
theorem algebraic : Cert.algebraic_KernelIdeal_ReferenceIdeal := by
  intro m ρ m' ρ' hpre hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  obtain ⟨a0, a1, a2, a3, a4, a5, a6⟩ := hagree c
  rw [a0, a1, a2, a3, a4, a5, a6]
  exact bridge m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
